-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S128x512x66 : Shape := ⟨3, ![128, 512, 66]⟩
abbrev S50000x300 : Shape := ⟨2, ![50000, 300]⟩
abbrev S37x32 : Shape := ⟨2, ![37, 32]⟩
abbrev S43x100 : Shape := ⟨2, ![43, 100]⟩
abbrev S498x4096 : Shape := ⟨2, ![498, 4096]⟩
abbrev S1024x4096 : Shape := ⟨2, ![1024, 4096]⟩
abbrev S4096 : Shape := ⟨1, ![4096]⟩
abbrev S1024x43 : Shape := ⟨2, ![1024, 43]⟩
abbrev S43 : Shape := ⟨1, ![43]⟩
abbrev S_ : Shape := ⟨0, ![]⟩

class Facts : Prop where
  bcast_S_S128x512x66 : S_.BroadcastsInDim S128x512x66 (![] : Fin 0 → Fin S128x512x66.rank)
  reducesTo_S128x512x66_S_d0_1_2 : S128x512x66.ReducesTo [0, 1, 2] S_
  h_S_ : 0 < S_.numel
  bcast_S_S50000x300 : S_.BroadcastsInDim S50000x300 (![] : Fin 0 → Fin S50000x300.rank)
  reducesTo_S50000x300_S_d0_1 : S50000x300.ReducesTo [0, 1] S_
  bcast_S_S37x32 : S_.BroadcastsInDim S37x32 (![] : Fin 0 → Fin S37x32.rank)
  reducesTo_S37x32_S_d0_1 : S37x32.ReducesTo [0, 1] S_
  bcast_S_S43x100 : S_.BroadcastsInDim S43x100 (![] : Fin 0 → Fin S43x100.rank)
  reducesTo_S43x100_S_d0_1 : S43x100.ReducesTo [0, 1] S_
  bcast_S_S498x4096 : S_.BroadcastsInDim S498x4096 (![] : Fin 0 → Fin S498x4096.rank)
  reducesTo_S498x4096_S_d0_1 : S498x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024x43 : S_.BroadcastsInDim S1024x43 (![] : Fin 0 → Fin S1024x43.rank)
  reducesTo_S1024x43_S_d0_1 : S1024x43.ReducesTo [0, 1] S_
  bcast_S_S43 : S_.BroadcastsInDim S43 (![] : Fin 0 → Fin S43.rank)
  reducesTo_S43_S_d0 : S43.ReducesTo [0] S_

variable [Facts]

def fn_part2 {F : FTy → Type} [FloatOps F] (main_arg10 : FVec F S1024x43 .f32) (main_arg11 : FVec F S43 .f32) (main_v33 : IVec S_ 1) : IVec S_ 1 :=
  let main_v34 : FVec F S1024x43 .f32 := Host.absf main_arg10
  let main_cst_12 : FVec F S_ .f32 := constant S_ .f32 0x7F800000#32
  let main_v35 : FVec F S1024x43 .f32 := broadcastInDim S1024x43 ![] bcast_S_S1024x43 main_cst_12
  let main_v36 : IVec S1024x43 1 := cmpf .olt main_v34 main_v35
  let main_c_13 : IVec S_ 1 := constantI S_ 1 1#1
  let main_v37 : IVec S_ 1 := (fun x v => Host.reduce IntOp.andi x v reducesTo_S1024x43_S_d0_1 h_S_) main_v36 main_c_13
  let main_v38 : IVec S_ 1 := andi main_v33 main_v37
  let main_v39 : FVec F S43 .f32 := Host.absf main_arg11
  let main_cst_14 : FVec F S_ .f32 := constant S_ .f32 0x7F800000#32
  let main_v40 : FVec F S43 .f32 := broadcastInDim S43 ![] bcast_S_S43 main_cst_14
  let main_v41 : IVec S43 1 := cmpf .olt main_v39 main_v40
  let main_c_15 : IVec S_ 1 := constantI S_ 1 1#1
  let main_v42 : IVec S_ 1 := (fun x v => Host.reduce IntOp.andi x v reducesTo_S43_S_d0 h_S_) main_v41 main_c_15
  let main_v43 : IVec S_ 1 := andi main_v38 main_v42
  main_v43

def fn_part1 {F : FTy → Type} [FloatOps F] (main_arg7 : FVec F S498x4096 .f32) (main_arg8 : FVec F S1024x4096 .f32) (main_arg9 : FVec F S4096 .f32) (main_arg10 : FVec F S1024x43 .f32) (main_arg11 : FVec F S43 .f32) (main_v13 : IVec S_ 1) (main_v16 : IVec S43x100 1) : IVec S_ 1 :=
  let main_c_5 : IVec S_ 1 := constantI S_ 1 1#1
  let main_v17 : IVec S_ 1 := (fun x v => Host.reduce IntOp.andi x v reducesTo_S43x100_S_d0_1 h_S_) main_v16 main_c_5
  let main_v18 : IVec S_ 1 := andi main_v13 main_v17
  let main_v19 : FVec F S498x4096 .f32 := Host.absf main_arg7
  let main_cst_6 : FVec F S_ .f32 := constant S_ .f32 0x7F800000#32
  let main_v20 : FVec F S498x4096 .f32 := broadcastInDim S498x4096 ![] bcast_S_S498x4096 main_cst_6
  let main_v21 : IVec S498x4096 1 := cmpf .olt main_v19 main_v20
  let main_c_7 : IVec S_ 1 := constantI S_ 1 1#1
  let main_v22 : IVec S_ 1 := (fun x v => Host.reduce IntOp.andi x v reducesTo_S498x4096_S_d0_1 h_S_) main_v21 main_c_7
  let main_v23 : IVec S_ 1 := andi main_v18 main_v22
  let main_v24 : FVec F S1024x4096 .f32 := Host.absf main_arg8
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg9
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg10 main_arg11 main_v33

def fn {F : FTy → Type} [FloatOps F] (main_arg0 : IVec S128x512 32) (main_arg1 : IVec S128x512 32) (main_arg2 : FVec F S128x512x66 .f32) (main_arg3 : IVec S128x512 32) (main_arg4 : FVec F S50000x300 .f32) (main_arg5 : FVec F S37x32 .f32) (main_arg6 : FVec F S43x100 .f32) (main_arg7 : FVec F S498x4096 .f32) (main_arg8 : FVec F S1024x4096 .f32) (main_arg9 : FVec F S4096 .f32) (main_arg10 : FVec F S1024x43 .f32) (main_arg11 : FVec F S43 .f32) : IVec S_ 1 :=
  let main_v0 : FVec F S128x512x66 .f32 := Host.absf main_arg2
  let main_cst : FVec F S_ .f32 := constant S_ .f32 0x7F800000#32
  let main_v1 : FVec F S128x512x66 .f32 := broadcastInDim S128x512x66 ![] bcast_S_S128x512x66 main_cst
  let main_v2 : IVec S128x512x66 1 := cmpf .olt main_v0 main_v1
  let main_c : IVec S_ 1 := constantI S_ 1 1#1
  let main_v3 : IVec S_ 1 := (fun x v => Host.reduce IntOp.andi x v reducesTo_S128x512x66_S_d0_1_2 h_S_) main_v2 main_c
  let main_v4 : FVec F S50000x300 .f32 := Host.absf main_arg4
  let main_cst_0 : FVec F S_ .f32 := constant S_ .f32 0x7F800000#32
  let main_v5 : FVec F S50000x300 .f32 := broadcastInDim S50000x300 ![] bcast_S_S50000x300 main_cst_0
  let main_v6 : IVec S50000x300 1 := cmpf .olt main_v4 main_v5
  let main_c_1 : IVec S_ 1 := constantI S_ 1 1#1
  let main_v7 : IVec S_ 1 := (fun x v => Host.reduce IntOp.andi x v reducesTo_S50000x300_S_d0_1 h_S_) main_v6 main_c_1
  let main_v8 : IVec S_ 1 := andi main_v3 main_v7
  let main_v9 : FVec F S37x32 .f32 := Host.absf main_arg5
  let main_cst_2 : FVec F S_ .f32 := constant S_ .f32 0x7F800000#32
  let main_v10 : FVec F S37x32 .f32 := broadcastInDim S37x32 ![] bcast_S_S37x32 main_cst_2
  let main_v11 : IVec S37x32 1 := cmpf .olt main_v9 main_v10
  let main_c_3 : IVec S_ 1 := constantI S_ 1 1#1
  let main_v12 : IVec S_ 1 := (fun x v => Host.reduce IntOp.andi x v reducesTo_S37x32_S_d0_1 h_S_) main_v11 main_c_3
  let main_v13 : IVec S_ 1 := andi main_v8 main_v12
  let main_v14 : FVec F S43x100 .f32 := Host.absf main_arg6
  let main_cst_4 : FVec F S_ .f32 := constant S_ .f32 0x7F800000#32
  let main_v15 : FVec F S43x100 .f32 := broadcastInDim S43x100 ![] bcast_S_S43x100 main_cst_4
  let main_v16 : IVec S43x100 1 := cmpf .olt main_v14 main_v15
  fn_part1 (F := F) main_arg7 main_arg8 main_arg9 main_arg10 main_arg11 main_v13 main_v16
-- ==== Kernel.lean ====
abbrev S128x512 : Shape := ⟨2, ![128, 512]⟩
abbrev S128x512x66 : Shape := ⟨3, ![128, 512, 66]⟩
abbrev S50000x300 : Shape := ⟨2, ![50000, 300]⟩
abbrev S37x32 : Shape := ⟨2, ![37, 32]⟩
abbrev S43x100 : Shape := ⟨2, ![43, 100]⟩
abbrev S498x4096 : Shape := ⟨2, ![498, 4096]⟩
abbrev S1024x4096 : Shape := ⟨2, ![1024, 4096]⟩
abbrev S4096 : Shape := ⟨1, ![4096]⟩
abbrev S1024x43 : Shape := ⟨2, ![1024, 43]⟩
abbrev S43 : Shape := ⟨1, ![43]⟩
abbrev S_ : Shape := ⟨0, ![]⟩
abbrev S128x512x1 : Shape := ⟨3, ![128, 512, 1]⟩
abbrev S128x512x300 : Shape := ⟨3, ![128, 512, 300]⟩
abbrev S128x512x32 : Shape := ⟨3, ![128, 512, 32]⟩
abbrev S128x511 : Shape := ⟨2, ![128, 511]⟩
abbrev S128x511x1 : Shape := ⟨3, ![128, 511, 1]⟩
abbrev S128x511x100 : Shape := ⟨3, ![128, 511, 100]⟩
abbrev S128x1x100 : Shape := ⟨3, ![128, 1, 100]⟩
abbrev S128x512x100 : Shape := ⟨3, ![128, 512, 100]⟩
abbrev S128x512x498 : Shape := ⟨3, ![128, 512, 498]⟩
abbrev S128x511x498 : Shape := ⟨3, ![128, 511, 498]⟩
abbrev S65408x498 : Shape := ⟨2, ![65408, 498]⟩
abbrev S498x1024 : Shape := ⟨2, ![498, 1024]⟩
abbrev S498x3072 : Shape := ⟨2, ![498, 3072]⟩
abbrev S1024 : Shape := ⟨1, ![1024]⟩
abbrev S3072 : Shape := ⟨1, ![3072]⟩
abbrev S1x3072 : Shape := ⟨2, ![1, 3072]⟩
abbrev S1x43 : Shape := ⟨2, ![1, 43]⟩
abbrev S65536x498 : Shape := ⟨2, ![65536, 498]⟩
abbrev S65536x43 : Shape := ⟨2, ![65536, 43]⟩
abbrev S256x498 : Shape := ⟨2, ![256, 498]⟩
abbrev S256x43 : Shape := ⟨2, ![256, 43]⟩
abbrev S256x3072 : Shape := ⟨2, ![256, 3072]⟩
abbrev S256x1024 : Shape := ⟨2, ![256, 1024]⟩
abbrev S65408x43 : Shape := ⟨2, ![65408, 43]⟩
abbrev S128x511x43 : Shape := ⟨3, ![128, 511, 43]⟩

abbrev nBuf : Space → Nat
  | .hbm => 65
  | .vmem => 8
  | .smem => 0
  | _ => 0

abbrev bufTy : (tb : Table) → Fin (tcTables nBuf tb) → BufTy
  | .hbm, ⟨0, _⟩ => ⟨S128x512, .i32⟩
  | .hbm, ⟨1, _⟩ => ⟨S128x512, .i32⟩
  | .hbm, ⟨2, _⟩ => ⟨S128x512x66, .f32⟩
  | .hbm, ⟨3, _⟩ => ⟨S128x512, .i32⟩
  | .hbm, ⟨4, _⟩ => ⟨S50000x300, .f32⟩
  | .hbm, ⟨5, _⟩ => ⟨S37x32, .f32⟩
  | .hbm, ⟨6, _⟩ => ⟨S43x100, .f32⟩
  | .hbm, ⟨7, _⟩ => ⟨S498x4096, .f32⟩
  | .hbm, ⟨8, _⟩ => ⟨S1024x4096, .f32⟩
  | .hbm, ⟨9, _⟩ => ⟨S4096, .f32⟩
  | .hbm, ⟨10, _⟩ => ⟨S1024x43, .f32⟩
  | .hbm, ⟨11, _⟩ => ⟨S43, .f32⟩
  | .hbm, ⟨12, _⟩ => ⟨S_, .i32⟩
  | .hbm, ⟨13, _⟩ => ⟨S128x512, .i32⟩
  | .hbm, ⟨14, _⟩ => ⟨S128x512, .i1⟩
  | .hbm, ⟨15, _⟩ => ⟨S_, .i32⟩
  | .hbm, ⟨16, _⟩ => ⟨S128x512, .i32⟩
  | .hbm, ⟨17, _⟩ => ⟨S128x512, .i32⟩
  | .hbm, ⟨18, _⟩ => ⟨S128x512, .i32⟩
  | .hbm, ⟨19, _⟩ => ⟨S128x512x1, .i32⟩
  | .hbm, ⟨20, _⟩ => ⟨S128x512x300, .f32⟩
  | .hbm, ⟨21, _⟩ => ⟨S_, .i32⟩
  | .hbm, ⟨22, _⟩ => ⟨S128x512, .i32⟩
  | .hbm, ⟨23, _⟩ => ⟨S128x512, .i1⟩
  | .hbm, ⟨24, _⟩ => ⟨S_, .i32⟩
  | .hbm, ⟨25, _⟩ => ⟨S128x512, .i32⟩
  | .hbm, ⟨26, _⟩ => ⟨S128x512, .i32⟩
  | .hbm, ⟨27, _⟩ => ⟨S128x512, .i32⟩
  | .hbm, ⟨28, _⟩ => ⟨S128x512x1, .i32⟩
  | .hbm, ⟨29, _⟩ => ⟨S128x512x32, .f32⟩
  | .hbm, ⟨30, _⟩ => ⟨S128x511, .i32⟩
  | .hbm, ⟨31, _⟩ => ⟨S_, .i32⟩
  | .hbm, ⟨32, _⟩ => ⟨S128x511, .i32⟩
  | .hbm, ⟨33, _⟩ => ⟨S128x511, .i1⟩
  | .hbm, ⟨34, _⟩ => ⟨S_, .i32⟩
  | .hbm, ⟨35, _⟩ => ⟨S128x511, .i32⟩
  | .hbm, ⟨36, _⟩ => ⟨S128x511, .i32⟩
  | .hbm, ⟨37, _⟩ => ⟨S128x511, .i32⟩
  | .hbm, ⟨38, _⟩ => ⟨S128x511x1, .i32⟩
  | .hbm, ⟨39, _⟩ => ⟨S128x511x100, .f32⟩
  | .hbm, ⟨40, _⟩ => ⟨S_, .f32⟩
  | .hbm, ⟨41, _⟩ => ⟨S128x1x100, .f32⟩
  | .hbm, ⟨42, _⟩ => ⟨S128x512x100, .f32⟩
  | .hbm, ⟨43, _⟩ => ⟨S128x512x498, .f32⟩
  | .hbm, ⟨44, _⟩ => ⟨S128x511x498, .f32⟩
  | .hbm, ⟨45, _⟩ => ⟨S65408x498, .f32⟩
  | .hbm, ⟨46, _⟩ => ⟨S65408x498, .bf16⟩
  | .hbm, ⟨47, _⟩ => ⟨S498x1024, .f32⟩
  | .hbm, ⟨48, _⟩ => ⟨S498x1024, .f32⟩
  | .hbm, ⟨49, _⟩ => ⟨S498x1024, .f32⟩
  | .hbm, ⟨50, _⟩ => ⟨S498x3072, .f32⟩
  | .hbm, ⟨51, _⟩ => ⟨S498x3072, .bf16⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S3072, .f32⟩
  | .hbm, ⟨56, _⟩ => ⟨S1x3072, .f32⟩
  | .hbm, ⟨57, _⟩ => ⟨S1024x43, .bf16⟩
  | .hbm, ⟨58, _⟩ => ⟨S1x43, .f32⟩
  | .hbm, ⟨59, _⟩ => ⟨S_, .i32⟩
  | .hbm, ⟨60, _⟩ => ⟨S_, .bf16⟩
  | .hbm, ⟨61, _⟩ => ⟨S65536x498, .bf16⟩
  | .hbm, ⟨62, _⟩ => ⟨S65536x43, .f32⟩
  | .hbm, ⟨63, _⟩ => ⟨S65408x43, .f32⟩
  | .hbm, ⟨64, _⟩ => ⟨S128x511x43, .f32⟩
  | .local _ .vmem, ⟨0, _⟩ => ⟨S256x498, .bf16⟩
  | .local _ .vmem, ⟨1, _⟩ => ⟨S256x498, .bf16⟩
  | .local _ .vmem, ⟨2, _⟩ => ⟨S498x3072, .bf16⟩
  | .local _ .vmem, ⟨3, _⟩ => ⟨S1x3072, .f32⟩
  | .local _ .vmem, ⟨4, _⟩ => ⟨S1024x43, .bf16⟩
  | .local _ .vmem, ⟨5, _⟩ => ⟨S1x43, .f32⟩
  | .local _ .vmem, ⟨6, _⟩ => ⟨S256x43, .f32⟩
  | .local _ .vmem, ⟨7, _⟩ => ⟨S256x43, .f32⟩
  | _, _ => ⟨S128x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_call0_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x498 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S498x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x43 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x43 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x43 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  slices_S128x512_S128x511_0_0 : S128x512.Slices ![0, 0] S128x511
  bcast_S_S128x511 : S_.BroadcastsInDim S128x511 (![] : Fin 0 → Fin S128x511.rank)
  bcast_S128x511_S128x511x1_0_1 : S128x511.BroadcastsInDim S128x511x1 (![0, 1] : Fin 2 → Fin S128x511x1.rank)
  bcast_S_S128x1x100 : S_.BroadcastsInDim S128x1x100 (![] : Fin 0 → Fin S128x1x100.rank)
  concatenates_S128x1x100_S128x511x100_S128x512x100_d1 : Shape.Concatenates [S128x1x100, S128x511x100] S128x512x100 1
  concatenates_S128x512x300_S128x512x32_S128x512x66_S128x512x100_S128x512x498_d2 : Shape.Concatenates [S128x512x300, S128x512x32, S128x512x66, S128x512x100] S128x512x498 2
  slices_S128x512x498_S128x511x498_0_1_0 : S128x512x498.Slices ![0, 1, 0] S128x511x498
  shapeCasts_S128x511x498_S65408x498 : S128x511x498.ShapeCasts S65408x498
  bitsLt_bf16_f32 : FTy.bits .bf16 < FTy.bits .f32
  slices_S498x4096_S498x1024_0_0 : S498x4096.Slices ![0, 0] S498x1024
  slices_S498x4096_S498x1024_0_2048 : S498x4096.Slices ![0, 2048] S498x1024
  slices_S498x4096_S498x1024_0_3072 : S498x4096.Slices ![0, 3072] S498x1024
  concatenates_S498x1024_S498x1024_S498x1024_S498x3072_d1 : Shape.Concatenates [S498x1024, S498x1024, S498x1024] S498x3072 1
  slices_S4096_S1024_0 : S4096.Slices ![0] S1024
  slices_S4096_S1024_2048 : S4096.Slices ![2048] S1024
  slices_S4096_S1024_3072 : S4096.Slices ![3072] S1024
  concatenates_S1024_S1024_S1024_S3072_d0 : Shape.Concatenates [S1024, S1024, S1024] S3072 0
  shapeCasts_S3072_S1x3072 : S3072.ShapeCasts S1x3072
  shapeCasts_S43_S1x43 : S43.ShapeCasts S1x43
  pads_S65408x498_S65536x498_01280_000 : S65408x498.Pads (![0, 0] : Fin 2 → Nat) ![128, 0] ![0, 0] S65536x498
  h_S_ : 0 < S_.numel
  inb_S256x498_S256x498_0_0 : ∀ a, (![0, 0] : Fin 2 → Nat) a + S256x498.size a ≤ S256x498.size a
  h_S256x498 : 0 < S256x498.numel
  shapeCasts_S256x498_S256x498 : S256x498.ShapeCasts S256x498
  inb_S498x3072_S498x3072_0_0 : ∀ a, (![0, 0] : Fin 2 → Nat) a + S498x3072.size a ≤ S498x3072.size a
  h_S498x3072 : 0 < S498x3072.numel
  shapeCasts_S498x3072_S498x3072 : S498x3072.ShapeCasts S498x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  inb_S1024x43_S1024x43_0_0 : ∀ a, (![0, 0] : Fin 2 → Nat) a + S1024x43.size a ≤ S1024x43.size a
  h_S1024x43 : 0 < S1024x43.numel
  shapeCasts_S1024x43_S1024x43 : S1024x43.ShapeCasts S1024x43
  inb_S1x43_S1x43_0_0 : ∀ a, (![0, 0] : Fin 2 → Nat) a + S1x43.size a ≤ S1x43.size a
  h_S1x43 : 0 < S1x43.numel
  shapeCasts_S1x43_S1x43 : S1x43.ShapeCasts S1x43
  broadcasts_S1x43_S256x43 : S1x43.Broadcasts S256x43
  inb_S256x43_S256x43_0_0 : ∀ a, (![0, 0] : Fin 2 → Nat) a + S256x43.size a ≤ S256x43.size a
  h_S256x43 : 0 < S256x43.numel
  slices_S65536x43_S65408x43_0_0 : S65536x43.Slices ![0, 0] S65408x43
  shapeCasts_S65408x43_S128x511x43 : S65408x43.ShapeCasts S128x511x43
  gather_S50000x300_S128x512x1_S128x512x300_2_0_n_n_0_2_1300_wf : GatherDims.WF S50000x300 S128x512x1 S128x512x300 [2] [0] [] [0] [] 2 ![1, 300]
  gather_S37x32_S128x512x1_S128x512x32_2_0_n_n_0_2_132_wf : GatherDims.WF S37x32 S128x512x1 S128x512x32 [2] [0] [] [0] [] 2 ![1, 32]
  gather_S43x100_S128x511x1_S128x511x100_2_0_n_n_0_2_1100_wf : GatherDims.WF S43x100 S128x511x1 S128x511x100 [2] [0] [] [0] [] 2 ![1, 100]
  dot_S256x498_S498x3072_S256x3072_1_0_0_1_n_n_wf : DotDims.WF S256x498 S498x3072 S256x3072 [1] [0] [0] [1] [] []
  dot_S256x1024_S1024x43_S256x43_1_0_0_1_n_n_wf : DotDims.WF S256x1024 S1024x43 S256x43 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x498.size a ≤ S65536x498.size a
  hwx0_0 : ∀ i : grid0.Coords, EltTy.bits .bf16 = 32 ∨ (Rect.block (s := S65536x498) S256x498.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S498x3072.size a ≤ S498x3072.size a
  hwx0_1 : ∀ i : grid0.Coords, EltTy.bits .bf16 = 32 ∨ (Rect.block (s := S498x3072) S498x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x43.size a ≤ S1024x43.size a
  hwx0_3 : ∀ i : grid0.Coords, EltTy.bits .bf16 = 32 ∨ (Rect.block (s := S1024x43) S1024x43.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x43.size a ≤ S1x43.size a
  hwx0_4 : ∀ i : grid0.Coords, EltTy.bits .f32 = 32 ∨ (Rect.block (s := S1x43) S1x43.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x43.size a ≤ S65536x43.size a
  hwx0_5 : ∀ i : grid0.Coords, EltTy.bits .f32 = 32 ∨ (Rect.block (s := S65536x43) S256x43.size (cc0_transform_5 i) (hinb0_5 i)).WholeWords (EltTy.packing .f32)

variable [Facts₀]

def gather_S50000x300_S128x512x1_S128x512x300_2_0_n_n_0_2_1300 : GatherDims S50000x300 S128x512x1 S128x512x300 where
  offsetDims := [2]
  collapsedSliceDims := [0]
  operandBatchingDims := []
  startIndicesBatchingDims := []
  startIndexMap := [0]
  indexVectorDim := 2
  sliceSizes := ![1, 300]
  wf := gather_S50000x300_S128x512x1_S128x512x300_2_0_n_n_0_2_1300_wf
def gather_S37x32_S128x512x1_S128x512x32_2_0_n_n_0_2_132 : GatherDims S37x32 S128x512x1 S128x512x32 where
  offsetDims := [2]
  collapsedSliceDims := [0]
  operandBatchingDims := []
  startIndicesBatchingDims := []
  startIndexMap := [0]
  indexVectorDim := 2
  sliceSizes := ![1, 32]
  wf := gather_S37x32_S128x512x1_S128x512x32_2_0_n_n_0_2_132_wf
def gather_S43x100_S128x511x1_S128x511x100_2_0_n_n_0_2_1100 : GatherDims S43x100 S128x511x1 S128x511x100 where
  offsetDims := [2]
  collapsedSliceDims := [0]
  operandBatchingDims := []
  startIndicesBatchingDims := []
  startIndexMap := [0]
  indexVectorDim := 2
  sliceSizes := ![1, 100]
  wf := gather_S43x100_S128x511x1_S128x511x100_2_0_n_n_0_2_1100_wf
def dot_S256x498_S498x3072_S256x3072_1_0_0_1_n_n : DotDims S256x498 S498x3072 S256x3072 where
  lhsContracting := [1]
  rhsContracting := [0]
  lhsNonContracting := [0]
  rhsNonContracting := [1]
  lhsBatch := []
  rhsBatch := []
  wf := dot_S256x498_S498x3072_S256x3072_1_0_0_1_n_n_wf
def dot_S256x1024_S1024x43_S256x43_1_0_0_1_n_n : DotDims S256x1024 S1024x43 S256x43 where
  lhsContracting := [1]
  rhsContracting := [0]
  lhsNonContracting := [0]
  rhsNonContracting := [1]
  lhsBatch := []
  rhsBatch := []
  wf := dot_S256x1024_S1024x43_S256x43_1_0_0_1_n_n_wf

abbrev win0_0 : Pipeline.Window sig grid0 :=
  Pipeline.Window.ofSpec (Memref.whole main_v40) S256x498.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S498x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1024x43.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x43.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S256x43.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x512 : Shape := ⟨2, ![128, 512]⟩
abbrev S128x512x66 : Shape := ⟨3, ![128, 512, 66]⟩
abbrev S50000x300 : Shape := ⟨2, ![50000, 300]⟩
abbrev S37x32 : Shape := ⟨2, ![37, 32]⟩
abbrev S43x100 : Shape := ⟨2, ![43, 100]⟩
abbrev S498x4096 : Shape := ⟨2, ![498, 4096]⟩
abbrev S1024x4096 : Shape := ⟨2, ![1024, 4096]⟩
abbrev S4096 : Shape := ⟨1, ![4096]⟩
abbrev S1024x43 : Shape := ⟨2, ![1024, 43]⟩
abbrev S43 : Shape := ⟨1, ![43]⟩
abbrev S_ : Shape := ⟨0, ![]⟩
abbrev S128x512x1 : Shape := ⟨3, ![128, 512, 1]⟩
abbrev S128x512x300 : Shape := ⟨3, ![128, 512, 300]⟩
abbrev S128x512x32 : Shape := ⟨3, ![128, 512, 32]⟩
abbrev S128x511 : Shape := ⟨2, ![128, 511]⟩
abbrev S128x511x1 : Shape := ⟨3, ![128, 511, 1]⟩
abbrev S128x511x100 : Shape := ⟨3, ![128, 511, 100]⟩
abbrev S128x1x100 : Shape := ⟨3, ![128, 1, 100]⟩
abbrev S128x512x100 : Shape := ⟨3, ![128, 512, 100]⟩
abbrev S128x512x498 : Shape := ⟨3, ![128, 512, 498]⟩
abbrev S128x511x498 : Shape := ⟨3, ![128, 511, 498]⟩
abbrev S128x511x4096 : Shape := ⟨3, ![128, 511, 4096]⟩
abbrev S1x1x4096 : Shape := ⟨3, ![1, 1, 4096]⟩
abbrev S128x511x1024 : Shape := ⟨3, ![128, 511, 1024]⟩
abbrev S128x511x43 : Shape := ⟨3, ![128, 511, 43]⟩
abbrev S1x1x43 : Shape := ⟨3, ![1, 1, 43]⟩

abbrev nBuf : Space → Nat
  | .hbm => 77
  | .vmem => 0
  | .smem => 0
  | _ => 0

abbrev bufTy : (tb : Table) → Fin (tcTables nBuf tb) → BufTy
  | .hbm, ⟨0, _⟩ => ⟨S128x512, .i32⟩
  | .hbm, ⟨1, _⟩ => ⟨S128x512, .i32⟩
  | .hbm, ⟨2, _⟩ => ⟨S128x512x66, .f32⟩
  | .hbm, ⟨3, _⟩ => ⟨S128x512, .i32⟩
  | .hbm, ⟨4, _⟩ => ⟨S50000x300, .f32⟩
  | .hbm, ⟨5, _⟩ => ⟨S37x32, .f32⟩
  | .hbm, ⟨6, _⟩ => ⟨S43x100, .f32⟩
  | .hbm, ⟨7, _⟩ => ⟨S498x4096, .f32⟩
  | .hbm, ⟨8, _⟩ => ⟨S1024x4096, .f32⟩
  | .hbm, ⟨9, _⟩ => ⟨S4096, .f32⟩
  | .hbm, ⟨10, _⟩ => ⟨S1024x43, .f32⟩
  | .hbm, ⟨11, _⟩ => ⟨S43, .f32⟩
  | .hbm, ⟨12, _⟩ => ⟨S_, .i32⟩
  | .hbm, ⟨13, _⟩ => ⟨S128x512, .i32⟩
  | .hbm, ⟨14, _⟩ => ⟨S128x512, .i1⟩
  | .hbm, ⟨15, _⟩ => ⟨S_, .i32⟩
  | .hbm, ⟨16, _⟩ => ⟨S128x512, .i32⟩
  | .hbm, ⟨17, _⟩ => ⟨S128x512, .i32⟩
  | .hbm, ⟨18, _⟩ => ⟨S128x512, .i32⟩
  | .hbm, ⟨19, _⟩ => ⟨S128x512x1, .i32⟩
  | .hbm, ⟨20, _⟩ => ⟨S128x512x300, .f32⟩
  | .hbm, ⟨21, _⟩ => ⟨S_, .i32⟩
  | .hbm, ⟨22, _⟩ => ⟨S128x512, .i32⟩
  | .hbm, ⟨23, _⟩ => ⟨S128x512, .i1⟩
  | .hbm, ⟨24, _⟩ => ⟨S_, .i32⟩
  | .hbm, ⟨25, _⟩ => ⟨S128x512, .i32⟩
  | .hbm, ⟨26, _⟩ => ⟨S128x512, .i32⟩
  | .hbm, ⟨27, _⟩ => ⟨S128x512, .i32⟩
  | .hbm, ⟨28, _⟩ => ⟨S128x512x1, .i32⟩
  | .hbm, ⟨29, _⟩ => ⟨S128x512x32, .f32⟩
  | .hbm, ⟨30, _⟩ => ⟨S128x511, .i32⟩
  | .hbm, ⟨31, _⟩ => ⟨S_, .i32⟩
  | .hbm, ⟨32, _⟩ => ⟨S128x511, .i32⟩
  | .hbm, ⟨33, _⟩ => ⟨S128x511, .i1⟩
  | .hbm, ⟨34, _⟩ => ⟨S_, .i32⟩
  | .hbm, ⟨35, _⟩ => ⟨S128x511, .i32⟩
  | .hbm, ⟨36, _⟩ => ⟨S128x511, .i32⟩
  | .hbm, ⟨37, _⟩ => ⟨S128x511, .i32⟩
  | .hbm, ⟨38, _⟩ => ⟨S128x511x1, .i32⟩
  | .hbm, ⟨39, _⟩ => ⟨S128x511x100, .f32⟩
  | .hbm, ⟨40, _⟩ => ⟨S_, .f32⟩
  | .hbm, ⟨41, _⟩ => ⟨S128x1x100, .f32⟩
  | .hbm, ⟨42, _⟩ => ⟨S128x512x100, .f32⟩
  | .hbm, ⟨43, _⟩ => ⟨S128x512x498, .f32⟩
  | .hbm, ⟨44, _⟩ => ⟨S128x511x498, .f32⟩
  | .hbm, ⟨45, _⟩ => ⟨S128x511x4096, .f32⟩
  | .hbm, ⟨46, _⟩ => ⟨S1x1x4096, .f32⟩
  | .hbm, ⟨47, _⟩ => ⟨S128x511x4096, .f32⟩
  | .hbm, ⟨48, _⟩ => ⟨S128x511x4096, .f32⟩
  | .hbm, ⟨49, _⟩ => ⟨S128x511x1024, .f32⟩
  | .hbm, ⟨50, _⟩ => ⟨S128x511x1024, .f32⟩
  | .hbm, ⟨51, _⟩ => ⟨S128x511x1024, .f32⟩
  | .hbm, ⟨52, _⟩ => ⟨S128x511x1024, .f32⟩
  | .hbm, ⟨53, _⟩ => ⟨S128x511x1024, .f32⟩
  | .hbm, ⟨54, _⟩ => ⟨S128x511x1024, .f32⟩
  | .hbm, ⟨55, _⟩ => ⟨S_, .f32⟩
  | .hbm, ⟨56, _⟩ => ⟨S128x511x1024, .f32⟩
  | .hbm, ⟨57, _⟩ => ⟨S128x511x1024, .f32⟩
  | .hbm, ⟨58, _⟩ => ⟨S_, .f32⟩
  | .hbm, ⟨59, _⟩ => ⟨S128x511x1024, .f32⟩
  | .hbm, ⟨60, _⟩ => ⟨S128x511x1024, .f32⟩
  | .hbm, ⟨61, _⟩ => ⟨S128x511x1024, .f32⟩
  | .hbm, ⟨62, _⟩ => ⟨S128x511x1024, .f32⟩
  | .hbm, ⟨63, _⟩ => ⟨S128x511x1024, .f32⟩
  | .hbm, ⟨64, _⟩ => ⟨S128x511x1024, .f32⟩
  | .hbm, ⟨65, _⟩ => ⟨S_, .f32⟩
  | .hbm, ⟨66, _⟩ => ⟨S128x511x1024, .f32⟩
  | .hbm, ⟨67, _⟩ => ⟨S128x511x1024, .f32⟩
  | .hbm, ⟨68, _⟩ => ⟨S_, .f32⟩
  | .hbm, ⟨69, _⟩ => ⟨S128x511x1024, .f32⟩
  | .hbm, ⟨70, _⟩ => ⟨S128x511x1024, .f32⟩
  | .hbm, ⟨71, _⟩ => ⟨S128x511x1024, .f32⟩
  | .hbm, ⟨72, _⟩ => ⟨S128x511x1024, .f32⟩
  | .hbm, ⟨73, _⟩ => ⟨S128x511x43, .f32⟩
  | .hbm, ⟨74, _⟩ => ⟨S1x1x43, .f32⟩
  | .hbm, ⟨75, _⟩ => ⟨S128x511x43, .f32⟩
  | .hbm, ⟨76, _⟩ => ⟨S128x511x43, .f32⟩
  | _, _ => ⟨S128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  slices_S128x512_S128x511_0_0 : S128x512.Slices ![0, 0] S128x511
  bcast_S_S128x511 : S_.BroadcastsInDim S128x511 (![] : Fin 0 → Fin S128x511.rank)
  bcast_S128x511_S128x511x1_0_1 : S128x511.BroadcastsInDim S128x511x1 (![0, 1] : Fin 2 → Fin S128x511x1.rank)
  bcast_S_S128x1x100 : S_.BroadcastsInDim S128x1x100 (![] : Fin 0 → Fin S128x1x100.rank)
  concatenates_S128x1x100_S128x511x100_S128x512x100_d1 : Shape.Concatenates [S128x1x100, S128x511x100] S128x512x100 1
  concatenates_S128x512x300_S128x512x32_S128x512x66_S128x512x100_S128x512x498_d2 : Shape.Concatenates [S128x512x300, S128x512x32, S128x512x66, S128x512x100] S128x512x498 2
  slices_S128x512x498_S128x511x498_0_1_0 : S128x512x498.Slices ![0, 1, 0] S128x511x498
  bcast_S4096_S1x1x4096_2 : S4096.BroadcastsInDim S1x1x4096 (![2] : Fin 1 → Fin S1x1x4096.rank)
  bcast_S1x1x4096_S128x511x4096_0_1_2 : S1x1x4096.BroadcastsInDim S128x511x4096 (![0, 1, 2] : Fin 3 → Fin S128x511x4096.rank)
  slices_S128x511x4096_S128x511x1024_0_0_0 : S128x511x4096.Slices ![0, 0, 0] S128x511x1024
  slices_S128x511x4096_S128x511x1024_0_0_1024 : S128x511x4096.Slices ![0, 0, 1024] S128x511x1024
  slices_S128x511x4096_S128x511x1024_0_0_2048 : S128x511x4096.Slices ![0, 0, 2048] S128x511x1024
  slices_S128x511x4096_S128x511x1024_0_0_3072 : S128x511x4096.Slices ![0, 0, 3072] S128x511x1024
  bcast_S_S128x511x1024 : S_.BroadcastsInDim S128x511x1024 (![] : Fin 0 → Fin S128x511x1024.rank)
  bcast_S43_S1x1x43_2 : S43.BroadcastsInDim S1x1x43 (![2] : Fin 1 → Fin S1x1x43.rank)
  bcast_S1x1x43_S128x511x43_0_1_2 : S1x1x43.BroadcastsInDim S128x511x43 (![0, 1, 2] : Fin 3 → Fin S128x511x43.rank)
  gather_S50000x300_S128x512x1_S128x512x300_2_0_n_n_0_2_1300_wf : GatherDims.WF S50000x300 S128x512x1 S128x512x300 [2] [0] [] [0] [] 2 ![1, 300]
  gather_S37x32_S128x512x1_S128x512x32_2_0_n_n_0_2_132_wf : GatherDims.WF S37x32 S128x512x1 S128x512x32 [2] [0] [] [0] [] 2 ![1, 32]
  gather_S43x100_S128x511x1_S128x511x100_2_0_n_n_0_2_1100_wf : GatherDims.WF S43x100 S128x511x1 S128x511x100 [2] [0] [] [0] [] 2 ![1, 100]
  dot_S128x511x498_S498x4096_S128x511x4096_2_0_01_1_n_n_wf : DotDims.WF S128x511x498 S498x4096 S128x511x4096 [2] [0] [0, 1] [1] [] []
  dot_S128x511x1024_S1024x43_S128x511x43_2_0_01_1_n_n_wf : DotDims.WF S128x511x1024 S1024x43 S128x511x43 [2] [0] [0, 1] [1] [] []

variable [Facts₀]

def gather_S50000x300_S128x512x1_S128x512x300_2_0_n_n_0_2_1300 : GatherDims S50000x300 S128x512x1 S128x512x300 where
  offsetDims := [2]
  collapsedSliceDims := [0]
  operandBatchingDims := []
  startIndicesBatchingDims := []
  startIndexMap := [0]
  indexVectorDim := 2
  sliceSizes := ![1, 300]
  wf := gather_S50000x300_S128x512x1_S128x512x300_2_0_n_n_0_2_1300_wf
def gather_S37x32_S128x512x1_S128x512x32_2_0_n_n_0_2_132 : GatherDims S37x32 S128x512x1 S128x512x32 where
  offsetDims := [2]
  collapsedSliceDims := [0]
  operandBatchingDims := []
  startIndicesBatchingDims := []
  startIndexMap := [0]
  indexVectorDim := 2
  sliceSizes := ![1, 32]
  wf := gather_S37x32_S128x512x1_S128x512x32_2_0_n_n_0_2_132_wf
def gather_S43x100_S128x511x1_S128x511x100_2_0_n_n_0_2_1100 : GatherDims S43x100 S128x511x1 S128x511x100 where
  offsetDims := [2]
  collapsedSliceDims := [0]
  operandBatchingDims := []
  startIndicesBatchingDims := []
  startIndexMap := [0]
  indexVectorDim := 2
  sliceSizes := ![1, 100]
  wf := gather_S43x100_S128x511x1_S128x511x100_2_0_n_n_0_2_1100_wf
def dot_S128x511x498_S498x4096_S128x511x4096_2_0_01_1_n_n : DotDims S128x511x498 S498x4096 S128x511x4096 where
  lhsContracting := [2]
  rhsContracting := [0]
  lhsNonContracting := [0, 1]
  rhsNonContracting := [1]
  lhsBatch := []
  rhsBatch := []
  wf := dot_S128x511x498_S498x4096_S128x511x4096_2_0_01_1_n_n_wf
def dot_S128x511x1024_S1024x43_S128x511x43_2_0_01_1_n_n : DotDims S128x511x1024 S1024x43 S128x511x43 where
  lhsContracting := [2]
  rhsContracting := [0]
  lhsNonContracting := [0, 1]
  rhsNonContracting := [1]
  lhsBatch := []
  rhsBatch := []
  wf := dot_S128x511x1024_S1024x43_S128x511x43_2_0_01_1_n_n_wf

class Facts : Prop extends Facts₀ where

variable [Facts]
-- ==== Proof.FrameK.lean ====
/-
  The kernel's program runs to its end, faults nowhere and leaves its twelve arguments as given.

  The program is: 50 host lines (three table look-ups, the joins and cuts that lay the features out as 65408 rows of
  498, the three kept gate quarters of the weights and the bias joined, the padding to 65536 rows), ONE launch of the
  kernel over 256 grid points — point t reads rows 256 t … 256 t + 255 of the features and the whole of the four
  parameter arrays, and writes rows 256 t … 256 t + 255 of the scores —, and 2 host lines cutting the padding off.
  The body loads each input block whole, computes, and stores the output block whole: after it the output's staging
  buffer holds the body's arithmetic (`k0_pay1`) of the five input blocks, whatever it held before. With that as the
  launch's proof data the library's theorem for a launch between host lines gives the run; the arguments are among
  the buffers no line and no block transfer writes.
-/
import proofs.«107645_j42107859370787_1_alg».proof.Proof.Gen.Kernel.Launch
import proofs.«107645_j42107859370787_1_alg».proof.Proof.Gen.Kernel.Skeleton
import proofs.«107645_j42107859370787_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The core's buffer contents when the kernel is launched: the launch memory after the host lines before it. -/
abbrev V0 (c : Dev nD) : Valuation τ sig (Elt F) := StableHlo.after (List.flatten [hostOps0, hostOps0_1]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host lines, the launch, and the two closing host lines, in that order. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The closing lines touch only buffers that are free once the launch is over, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the six arrays the launch works on (each writes its own result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host line before the kernel's launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the launch writes argument 0 either: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the launch writes argument 1 either: it ends as given. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line after the launch writes argument 2 either: it ends as given. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line after the launch writes argument 3 either: it ends as given. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the launch writes argument 4 either: it ends as given. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line after the launch writes argument 5 either: it ends as given. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line after the launch writes argument 6 either: it ends as given. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line after the launch writes argument 7 either: it ends as given. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line after the launch writes argument 8 either: it ends as given. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host line after the launch writes argument 9 either: it ends as given. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host line after the launch writes argument 10 either: it ends as given. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host line after the launch writes argument 11 either: it ends as given. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every grid point, whether the point fetched
    it or an earlier one did (the block index not having moved since). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every grid point, whether the point fetched
    it or an earlier one did (the block index not having moved since). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every grid point, whether the point fetched
    it or an earlier one did (the block index not having moved since). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every grid point, whether the point fetched
    it or an earlier one did (the block index not having moved since). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every grid point, whether the point fetched
    it or an earlier one did (the block index not having moved since). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end as given, from a run of the launch -/

/-- For any proof data of the launch over the arrays as the launch finds them, a run that ends with every buffer
    outside the launch's six arrays as the closing lines leave it ends with every argument as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## What the body leaves in the output's staging buffer -/

abbrev r0_0 : Rect S256x498 := Rect.unit (s := S256x498) ![0, 0] S256x498.size inb_S256x498_S256x498_0_0
abbrev r0_1 : Rect S498x3072 := Rect.unit (s := S498x3072) ![0, 0] S498x3072.size inb_S498x3072_S498x3072_0_0
abbrev r0_2 : Rect S1x3072 := Rect.unit (s := S1x3072) ![0, 0] S1x3072.size inb_S1x3072_S1x3072_0_0
abbrev r0_3 : Rect S1024x43 := Rect.unit (s := S1024x43) ![0, 0] S1024x43.size inb_S1024x43_S1024x43_0_0
abbrev r0_4 : Rect S1x43 := Rect.unit (s := S1x43) ![0, 0] S1x43.size inb_S1x43_S1x43_0_0
abbrev r0_5 : Rect S256x43 := Rect.unit (s := S256x43) ![0, 0] S256x43.size inb_S256x43_S256x43_0_0

/-- The output's staging buffer after the body, from the five input blocks: one store of the whole block. -/
def out0_5 (x0 : Vec F S256x498 .bf16) (x1 : Vec F S498x3072 .bf16) (x2 : Vec F S1x3072 .f32) (x3 : Vec F S1024x43 .bf16) (x4 : Vec F S1x43 .f32) : Vec F S256x43 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S256x43 .f32) (y : S256x43.Idx) :
    ∃ pc ∈ ([⟨r0_5, p0⟩] : List (View.Piece (Elt F) S256x43 .f32)), y ∈ pc.1.set :=
  View.cover_of_tiled [⟨r0_5, p0⟩] S256x43.size (by rfl) y

/-! ## The body -/

set_option maxHeartbeats 1000000 in
/-- The body on whole staging buffers, the inputs' at contents `xW` and the output's at anything, runs to its end
    holding the inputs' as they were and the output's at `out0_5` of them. -/
theorem sound_kernel (c : Dev nD) (E : Set ℕ) (i : grid0.Coords) (arg1 : Memref sig .tc .vmem S256x498 .bf16) (harg1 : arg1.IsWhole) (arg2 : Memref sig .tc .vmem S498x3072 .bf16) (harg2 : arg2.IsWhole) (arg3 : Memref sig .tc .vmem S1x3072 .f32) (harg3 : arg3.IsWhole) (arg4 : Memref sig .tc .vmem S1024x43 .bf16) (harg4 : arg4.IsWhole) (arg5 : Memref sig .tc .vmem S1x43 .f32) (harg5 : arg5.IsWhole) (arg6 : Memref sig .tc .vmem S256x43 .f32) (harg6 : arg6.IsWhole)
    (x0 : Vec F S256x498 .bf16) (x1 : Vec F S498x3072 .bf16) (x2 : Vec F S1x3072 .f32) (x3 : Vec F S1024x43 .bf16) (x4 : Vec F S1x43 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The launch's proof data -/

/-- On core `c`: the six arrays as the launch finds them; after the body at point `t` each input's staging buffer at
    its block and the output's at `out0_5` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with each of the launch's six arrays at what
    the grid points' write-backs made of it and every other buffer as the closing lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Hand

end
-- ==== Proof.FrameI.lean ====
/-
  The kernel's program runs to its end, faults nowhere and leaves its twelve arguments as given.

  The program is: 50 host lines (three table look-ups, the joins and cuts that lay the features out as 65408 rows of
  498, the three kept gate quarters of the weights and the bias joined, the padding to 65536 rows), ONE launch of the
  kernel over 256 grid points — point t reads rows 256 t … 256 t + 255 of the features and the whole of the four
  parameter arrays, and writes rows 256 t … 256 t + 255 of the scores —, and 2 host lines cutting the padding off.
  The body loads each input block whole, computes, and stores the output block whole: after it the output's staging
  buffer holds the body's arithmetic (`k0_pay1`) of the five input blocks, whatever it held before. With that as the
  launch's proof data the library's theorem for a launch between host lines gives the run; the arguments are among
  the buffers no line and no block transfer writes.
-/
import proofs.«107645_j42107859370787_1_alg».proof.Proof.Gen.KernelIdeal.Launch
import proofs.«107645_j42107859370787_1_alg».proof.Proof.Gen.KernelIdeal.Skeleton
import proofs.«107645_j42107859370787_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The core's buffer contents when the kernel is launched: the launch memory after the host lines before it. -/
abbrev V0 (c : Dev nD) : Valuation τ sig (Elt F) := StableHlo.after (List.flatten [hostOps0, hostOps0_1]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host lines, the launch, and the two closing host lines, in that order. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The closing lines touch only buffers that are free once the launch is over, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the six arrays the launch works on (each writes its own result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host line before the kernel's launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the kernel's launch writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the launch writes argument 0 either: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the launch writes argument 1 either: it ends as given. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line after the launch writes argument 2 either: it ends as given. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line after the launch writes argument 3 either: it ends as given. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the launch writes argument 4 either: it ends as given. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line after the launch writes argument 5 either: it ends as given. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line after the launch writes argument 6 either: it ends as given. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line after the launch writes argument 7 either: it ends as given. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line after the launch writes argument 8 either: it ends as given. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host line after the launch writes argument 9 either: it ends as given. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host line after the launch writes argument 10 either: it ends as given. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host line after the launch writes argument 11 either: it ends as given. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every grid point, whether the point fetched
    it or an earlier one did (the block index not having moved since). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every grid point, whether the point fetched
    it or an earlier one did (the block index not having moved since). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every grid point, whether the point fetched
    it or an earlier one did (the block index not having moved since). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every grid point, whether the point fetched
    it or an earlier one did (the block index not having moved since). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every grid point, whether the point fetched
    it or an earlier one did (the block index not having moved since). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end as given, from a run of the launch -/

/-- For any proof data of the launch over the arrays as the launch finds them, a run that ends with every buffer
    outside the launch's six arrays as the closing lines leave it ends with every argument as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## What the body leaves in the output's staging buffer -/

abbrev r0_0 : Rect S256x498 := Rect.unit (s := S256x498) ![0, 0] S256x498.size inb_S256x498_S256x498_0_0
abbrev r0_1 : Rect S498x3072 := Rect.unit (s := S498x3072) ![0, 0] S498x3072.size inb_S498x3072_S498x3072_0_0
abbrev r0_2 : Rect S1x3072 := Rect.unit (s := S1x3072) ![0, 0] S1x3072.size inb_S1x3072_S1x3072_0_0
abbrev r0_3 : Rect S1024x43 := Rect.unit (s := S1024x43) ![0, 0] S1024x43.size inb_S1024x43_S1024x43_0_0
abbrev r0_4 : Rect S1x43 := Rect.unit (s := S1x43) ![0, 0] S1x43.size inb_S1x43_S1x43_0_0
abbrev r0_5 : Rect S256x43 := Rect.unit (s := S256x43) ![0, 0] S256x43.size inb_S256x43_S256x43_0_0

/-- The output's staging buffer after the body, from the five input blocks: one store of the whole block. -/
def out0_5 (x0 : Vec F S256x498 .bf16) (x1 : Vec F S498x3072 .bf16) (x2 : Vec F S1x3072 .f32) (x3 : Vec F S1024x43 .bf16) (x4 : Vec F S1x43 .f32) : Vec F S256x43 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S256x43 .f32) (y : S256x43.Idx) :
    ∃ pc ∈ ([⟨r0_5, p0⟩] : List (View.Piece (Elt F) S256x43 .f32)), y ∈ pc.1.set :=
  View.cover_of_tiled [⟨r0_5, p0⟩] S256x43.size (by rfl) y

/-! ## The body -/

set_option maxHeartbeats 1000000 in
/-- The body on whole staging buffers, the inputs' at contents `xW` and the output's at anything, runs to its end
    holding the inputs' as they were and the output's at `out0_5` of them. -/
theorem sound_kernel (c : Dev nD) (E : Set ℕ) (i : grid0.Coords) (arg1 : Memref sig .tc .vmem S256x498 .bf16) (harg1 : arg1.IsWhole) (arg2 : Memref sig .tc .vmem S498x3072 .bf16) (harg2 : arg2.IsWhole) (arg3 : Memref sig .tc .vmem S1x3072 .f32) (harg3 : arg3.IsWhole) (arg4 : Memref sig .tc .vmem S1024x43 .bf16) (harg4 : arg4.IsWhole) (arg5 : Memref sig .tc .vmem S1x43 .f32) (harg5 : arg5.IsWhole) (arg6 : Memref sig .tc .vmem S256x43 .f32) (harg6 : arg6.IsWhole)
    (x0 : Vec F S256x498 .bf16) (x1 : Vec F S498x3072 .bf16) (x2 : Vec F S1x3072 .f32) (x3 : Vec F S1024x43 .bf16) (x4 : Vec F S1x43 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The launch's proof data -/

/-- On core `c`: the six arrays as the launch finds them; after the body at point `t` each input's staging buffer at
    its block and the output's at `out0_5` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with each of the launch's six arrays at what
    the grid points' write-backs made of it and every other buffer as the closing lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Hand

end
-- ==== Proof.Spec.lean ====
/-
  The mathematics both programs compute, as functions on the extended reals, with no program in sight.

  A tagger's step from ZERO state: the feature row x (498 numbers) is multiplied into the four-gate weight matrix
  (4096 columns: input, forget, candidate and output gates, 1024 each) and the bias added; with zero previous cell
  state the forget gate never matters, and the step's hidden row is
      h u = σ(z (3072 + u)) · tanh (σ(z u) · tanh (z (2048 + u))),
  which a dense layer [1024, 43] with bias turns into 43 scores.

  One program keeps all 4096 gate columns and reads three quarters of them; the other first cuts the forget gate's
  quarter out of the weights and the bias (3072 columns left: column q of the kept ones is column `keep q` of the
  four-gate matrix) and lays the 128 x 511 feature rows out as 65408 rows (row b * 511 + s), padded to 65536.
  `Kat_eq_Gat` is the statement that these are one function: sums and products in the same order, so no law of
  the extended reals beyond rewriting equal entries is used, and no finiteness.
-/
import Idealize.ShloMosaic.PureOps.Ideal
import Idealize.ShloMosaic.Lib.ValueIdx

noncomputable section

namespace Cert.Lstm

open Idealize.ShloMosaic Idealize.ShloMosaic.ValueIdx

/-- One cell step from zero state, from the input, candidate and output gates' pre-activations. -/
def cell (zi zg zo : EReal) : EReal :=
  Ideal.logistic zo * Ideal.tanh (Ideal.logistic zi * Ideal.tanh zg)

/-! ## The four-gate form, over [128, 511] positions -/

/-- Gate pre-activation `g` (of 4096) at position `(b, s)`: the feature row times column `g`, plus the bias. -/
def zpre (X : (⟨3, ![128, 511, 498]⟩ : Shape).Idx → EReal) (Wx : (⟨2, ![498, 4096]⟩ : Shape).Idx → EReal)
    (bx : (⟨1, ![4096]⟩ : Shape).Idx → EReal) (b : Fin 128) (s : Fin 511) (g : Fin 4096) : EReal :=
  (∑ k : Fin 498, X (ix3 b s k) * Wx (ix2 k g)) + bx (ix1 g)

/-- Score `j` at position `(b, s)`. -/
def Gat (X : (⟨3, ![128, 511, 498]⟩ : Shape).Idx → EReal) (Wx : (⟨2, ![498, 4096]⟩ : Shape).Idx → EReal)
    (bx : (⟨1, ![4096]⟩ : Shape).Idx → EReal) (Wd : (⟨2, ![1024, 43]⟩ : Shape).Idx → EReal)
    (bd : (⟨1, ![43]⟩ : Shape).Idx → EReal) (b : Fin 128) (s : Fin 511) (j : Fin 43) : EReal :=
  (∑ u : Fin 1024, cell (zpre X Wx bx b s ⟨u.val, by omega⟩) (zpre X Wx bx b s ⟨2048 + u.val, by omega⟩)
      (zpre X Wx bx b s ⟨3072 + u.val, by omega⟩) * Wd (ix2 u j)) + bd (ix1 j)

/-- All scores, as one array [128, 511, 43]. -/
def G (X : (⟨3, ![128, 511, 498]⟩ : Shape).Idx → EReal) (Wx : (⟨2, ![498, 4096]⟩ : Shape).Idx → EReal)
    (bx : (⟨1, ![4096]⟩ : Shape).Idx → EReal) (Wd : (⟨2, ![1024, 43]⟩ : Shape).Idx → EReal)
    (bd : (⟨1, ![43]⟩ : Shape).Idx → EReal) : (⟨3, ![128, 511, 43]⟩ : Shape).Idx → EReal :=
  fun i => Gat X Wx bx Wd bd (i 0) (i 1) (i 2)

theorem G_ix3 (X : (⟨3, ![128, 511, 498]⟩ : Shape).Idx → EReal) (Wx : (⟨2, ![498, 4096]⟩ : Shape).Idx → EReal)
    (bx : (⟨1, ![4096]⟩ : Shape).Idx → EReal) (Wd : (⟨2, ![1024, 43]⟩ : Shape).Idx → EReal)
    (bd : (⟨1, ![43]⟩ : Shape).Idx → EReal) (b : Fin 128) (s : Fin 511) (j : Fin 43) :
    G X Wx bx Wd bd (ix3 b s j) = Gat X Wx bx Wd bd b s j := rfl

/-! ## The three-gate form, over `R` rows -/

/-- Kept gate column `q` (of 3072) at row `r`. -/
def zk {R : Nat} (A0 : (⟨2, ![R, 498]⟩ : Shape).Idx → EReal) (A1 : (⟨2, ![498, 3072]⟩ : Shape).Idx → EReal)
    (A2 : (⟨2, ![1, 3072]⟩ : Shape).Idx → EReal) (r : Fin R) (q : Fin 3072) : EReal :=
  (∑ k : Fin 498, A0 (ix2 r k) * A1 (ix2 k q)) + A2 (ix2 0 q)

/-- Score `j` at row `r`. -/
def Kat {R : Nat} (A0 : (⟨2, ![R, 498]⟩ : Shape).Idx → EReal) (A1 : (⟨2, ![498, 3072]⟩ : Shape).Idx → EReal)
    (A2 : (⟨2, ![1, 3072]⟩ : Shape).Idx → EReal) (A3 : (⟨2, ![1024, 43]⟩ : Shape).Idx → EReal)
    (A4 : (⟨2, ![1, 43]⟩ : Shape).Idx → EReal) (r : Fin R) (j : Fin 43) : EReal :=
  (∑ u : Fin 1024, cell (zk A0 A1 A2 r ⟨u.val, by omega⟩) (zk A0 A1 A2 r ⟨1024 + u.val, by omega⟩)
      (zk A0 A1 A2 r ⟨2048 + u.val, by omega⟩) * A3 (ix2 u j)) + A4 (ix2 0 j)

/-- All scores over `R` rows, as one array [R, 43]. -/
def K {R : Nat} (A0 : (⟨2, ![R, 498]⟩ : Shape).Idx → EReal) (A1 : (⟨2, ![498, 3072]⟩ : Shape).Idx → EReal)
    (A2 : (⟨2, ![1, 3072]⟩ : Shape).Idx → EReal) (A3 : (⟨2, ![1024, 43]⟩ : Shape).Idx → EReal)
    (A4 : (⟨2, ![1, 43]⟩ : Shape).Idx → EReal) : (⟨2, ![R, 43]⟩ : Shape).Idx → EReal :=
  fun i => Kat A0 A1 A2 A3 A4 (i 0) (i 1)

theorem K_ix2 {R : Nat} (A0 : (⟨2, ![R, 498]⟩ : Shape).Idx → EReal) (A1 : (⟨2, ![498, 3072]⟩ : Shape).Idx → EReal)
    (A2 : (⟨2, ![1, 3072]⟩ : Shape).Idx → EReal) (A3 : (⟨2, ![1024, 43]⟩ : Shape).Idx → EReal)
    (A4 : (⟨2, ![1, 43]⟩ : Shape).Idx → EReal) (r : Fin R) (j : Fin 43) :
    K A0 A1 A2 A3 A4 (ix2 r j) = Kat A0 A1 A2 A3 A4 r j := rfl

/-- A row's scores read that row of the features only: two feature arrays (of any numbers of rows) that agree on
    a row give that row the same scores. -/
theorem Kat_congr_row {R R' : Nat} (A0 : (⟨2, ![R, 498]⟩ : Shape).Idx → EReal) (A0' : (⟨2, ![R', 498]⟩ : Shape).Idx → EReal)
    (A1 : (⟨2, ![498, 3072]⟩ : Shape).Idx → EReal) (A2 : (⟨2, ![1, 3072]⟩ : Shape).Idx → EReal)
    (A3 : (⟨2, ![1024, 43]⟩ : Shape).Idx → EReal) (A4 : (⟨2, ![1, 43]⟩ : Shape).Idx → EReal)
    (r : Fin R) (r' : Fin R') (h : ∀ k : Fin 498, A0 (ix2 r k) = A0' (ix2 r' k)) (j : Fin 43) :
    Kat A0 A1 A2 A3 A4 r j = Kat A0' A1 A2 A3 A4 r' j := by
  have hz : ∀ q, zk A0 A1 A2 r q = zk A0' A1 A2 r' q := fun q => by
    unfold zk; simp only [h]
  unfold Kat; simp only [hz]

/-- Which of the four-gate columns the kept column `q` is: the forget gate's quarter [1024, 2048) is cut out. -/
def keep (q : Fin 3072) : Fin 4096 :=
  if h : q.val < 1024 then ⟨q.val, by omega⟩ else ⟨q.val + 1024, by omega⟩

/-- The three-gate form on row `r` is the four-gate form at position `(b, s)`, when row `r` of the laid-out
    features is the position's feature row, the kept weights and bias are the four-gate ones at `keep`, and the
    dense layer's are the same. -/
theorem Kat_eq_Gat {R : Nat} (A0 : (⟨2, ![R, 498]⟩ : Shape).Idx → EReal) (A1 : (⟨2, ![498, 3072]⟩ : Shape).Idx → EReal)
    (A2 : (⟨2, ![1, 3072]⟩ : Shape).Idx → EReal) (A3 : (⟨2, ![1024, 43]⟩ : Shape).Idx → EReal)
    (A4 : (⟨2, ![1, 43]⟩ : Shape).Idx → EReal)
    (X : (⟨3, ![128, 511, 498]⟩ : Shape).Idx → EReal) (Wx : (⟨2, ![498, 4096]⟩ : Shape).Idx → EReal)
    (bx : (⟨1, ![4096]⟩ : Shape).Idx → EReal) (Wd : (⟨2, ![1024, 43]⟩ : Shape).Idx → EReal)
    (bd : (⟨1, ![43]⟩ : Shape).Idx → EReal) (r : Fin R) (b : Fin 128) (s : Fin 511)
    (h0 : ∀ k : Fin 498, A0 (ix2 r k) = X (ix3 b s k))
    (h1 : ∀ (k : Fin 498) (q : Fin 3072), A1 (ix2 k q) = Wx (ix2 k (keep q)))
    (h2 : ∀ q : Fin 3072, A2 (ix2 0 q) = bx (ix1 (keep q)))
    (h3 : ∀ (u : Fin 1024) (j : Fin 43), A3 (ix2 u j) = Wd (ix2 u j))
    (h4 : ∀ j : Fin 43, A4 (ix2 0 j) = bd (ix1 j)) (j : Fin 43) :
    Kat A0 A1 A2 A3 A4 r j = Gat X Wx bx Wd bd b s j := by
  have hz : ∀ q, zk A0 A1 A2 r q = zpre X Wx bx b s (keep q) := fun q => by
    unfold zk zpre; simp only [h0, h1, h2]
  have k0 : ∀ u : Fin 1024, keep ⟨u.val, by omega⟩ = ⟨u.val, by omega⟩ := fun u => by
    unfold keep; rw [dif_pos (show u.val < 1024 from u.isLt)]
  have k1 : ∀ u : Fin 1024, keep ⟨1024 + u.val, by omega⟩ = ⟨2048 + u.val, by omega⟩ := fun u => by
    unfold keep; rw [dif_neg (show ¬ (1024 + u.val < 1024) by omega)]; exact Fin.ext (show 1024 + u.val + 1024 = 2048 + u.val by omega)
  have k2 : ∀ u : Fin 1024, keep ⟨2048 + u.val, by omega⟩ = ⟨3072 + u.val, by omega⟩ := fun u => by
    unfold keep; rw [dif_neg (show ¬ (2048 + u.val < 1024) by omega)]; exact Fin.ext (show 2048 + u.val + 1024 = 3072 + u.val by omega)
  unfold Kat Gat
  simp only [hz, k0, k1, k2, h3, h4]

end Cert.Lstm

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.Payload.lean ====
/-
  The block body's arithmetic read at one entry, at the extended reals.

  One block of 256 feature rows (498 numbers each) is multiplied into the kept gate weights (3072 columns: the input,
  candidate and output gates, 1024 each) from a zero accumulator and the bias row added to every row; the three gates
  are cut out as the column stretches [0, 1024), [1024, 2048), [2048, 3072); the hidden row is
      h u = σ(z (2048 + u)) · tanh (σ(z u) · tanh (z (1024 + u))),
  narrowed to a 16-bit format (the identity on extended reals), multiplied into the dense layer [1024, 43] from a zero
  accumulator, and the dense bias row added to every row. Read at row p and score j this is, sum for sum and product
  for product, the three-gate form `Cert.Lstm.Kat` of the shared specification: no law of the extended reals is used
  beyond rewriting equal entries.
-/
import proofs.«107645_j42107859370787_1_alg».proof.Proof.Gen.KernelIdeal.Skeleton
import proofs.«107645_j42107859370787_1_alg».proof.Proof.Spec
import proofs.«107645_j42107859370787_1_alg».proof.Proof.LibPlainDot
import proofs.«107645_j42107859370787_1_alg».proof.Proof.LibColsCut
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Idealize.ShloMosaic Idealize.ShloMosaic.ValueIdx
open scoped BigOperators

/-- The logistic of a vector at an index is the extended reals' logistic of the entry. -/
theorem logistic_apply {s : Shape} {φ : FTy} (a : FVec Ideal s φ) (i : s.Idx) : logistic a i = Ideal.logistic (a i) := rfl

/-- The hyperbolic tangent of a vector at an index is the extended reals' of the entry. -/
theorem tanh_apply {s : Shape} {φ : FTy} (a : FVec Ideal s φ) (i : s.Idx) : tanh a i = Ideal.tanh (a i) := rfl

/-- The gate arithmetic at one entry: from the input, candidate and output gates' pre-activations `a`, `b`, `c` the
    narrowed product `σ(c) · tanh (σ(a) · tanh b)` is the cell step from zero state (narrowing is the identity on
    extended reals). -/
theorem gate_apply {s : Shape} (a b c : FVec Ideal s .f32) (h : FTy.bits .bf16 < FTy.bits .f32) (i : s.Idx) :
    (truncf .bf16 (mulf (logistic c) (tanh (mulf (logistic a) (tanh b)))) h : FVec Ideal s .bf16) i
      = Cert.Lstm.cell (a i) (b i) (c i) := rfl

/-- The first layer at one entry: the feature block times the kept gate weights into a zero accumulator, plus the bias
    row broadcast over the rows, is the kept gate column's pre-activation. -/
theorem z_apply (x0 : Vec Ideal S256x498 .bf16) (x2 : Vec Ideal S498x3072 .bf16) (x5 : Vec Ideal S1x3072 .f32)
    (h0 : S256x498.ShapeCasts S256x498) (h2 : S498x3072.ShapeCasts S498x3072) (h5 : S1x3072.ShapeCasts S1x3072)
    (hb : S1x3072.Broadcasts S256x3072) (p : Fin 256) (q : Fin 3072) :
    addf (F := Ideal) (matmul (φ₁ := .bf16) (φ₂ := .bf16) dot_S256x498_S498x3072_S256x3072_1_0_0_1_n_n none
        (shapeCast S256x498 x0 h0 : FVec Ideal S256x498 .bf16) (shapeCast S498x3072 x2 h2 : FVec Ideal S498x3072 .bf16)
        (constant S256x3072 .f32 0x00000000#32))
      (broadcastTo S256x3072 (shapeCast S1x3072 x5 h5 : FVec Ideal S1x3072 .f32) hb) (ix2 p q)
      = Cert.Lstm.zk x0 x2 x5 p q := by
  refine (addf_apply _ _ _).trans ?_
  unfold Cert.Lstm.zk
  refine congrArg₂ (fun a b : EReal => a + b) ?_ ?_
  · rw [shapeCast_self, shapeCast_self]
    exact Cert.LibPlainDot.matmul_plain_apply dot_S256x498_S498x3072_S256x3072_1_0_0_1_n_n rfl rfl rfl rfl rfl rfl none x0 x2 p q
  · rw [shapeCast_self]
    exact broadcastTo_1b_ab_apply x5 hb p q

/-- The block body's stored value at row `p`, score `j` is the three-gate form's score there. -/
theorem pay_apply (x0 : Vec Ideal S256x498 .bf16) (x2 : Vec Ideal S498x3072 .bf16) (x5 : Vec Ideal S1x3072 .f32)
    (x19 : Vec Ideal S1024x43 .bf16) (x22 : Vec Ideal S1x43 .f32) (p : Fin 256) (j : Fin 43) :
    Cert.KernelIdeal.Gen.k0_pay1 (F := Ideal) x0 x2 x5 x19 x22 (ix2 p j) = Cert.Lstm.Kat x0 x2 x5 x19 x22 p j := by
  unfold Gen.k0_pay1
  refine (addf_apply _ _ _).trans ?_
  unfold Cert.Lstm.Kat
  refine congrArg₂ (fun a b : EReal => a + b) ?_ ?_
  · refine (Cert.LibPlainDot.matmul_plain_apply dot_S256x1024_S1024x43_S256x43_1_0_0_1_n_n rfl rfl rfl rfl rfl rfl
      none _ _ p j).trans ?_
    refine Finset.sum_congr rfl fun u _ => ?_
    refine congrArg₂ (fun a b : EReal => a * b) ?_ ?_
    · refine (gate_apply _ _ _ _ (ix2 p u)).trans ?_
      refine congr (congr (congrArg Cert.Lstm.cell ?_) ?_) ?_
      · exact (Cert.LibColsCut.slice_cols 0 _ _ p u ⟨u.val, by omega⟩ (by simp)).trans (z_apply x0 x2 x5 _ _ _ _ p _)
      · exact (Cert.LibColsCut.slice_cols 1024 _ _ p u ⟨1024 + u.val, by omega⟩ rfl).trans (z_apply x0 x2 x5 _ _ _ _ p _)
      · exact (Cert.LibColsCut.slice_cols 2048 _ _ p u ⟨2048 + u.val, by omega⟩ rfl).trans (z_apply x0 x2 x5 _ _ _ _ p _)
    · exact congrFun (shapeCast_self x19 _) (ix2 u j)
  · refine (broadcastTo_1b_ab_apply _ _ p j).trans ?_
    exact congrFun (shapeCast_self x22 _) (ix2 0 j)

end Cert.KernelIdeal.Payload

end
-- ==== Proof.KValue.lean ====
/-
  The scores array the kernel's launch leaves, as one function of its five input arrays.

  Grid point t reads rows 256 t … 256 t + 255 of the laid-out features and the whole of the kept weights, the kept
  bias row, the dense weights and the dense bias row, and writes back rows 256 t … 256 t + 255 of the scores: row p
  of that block is the three-gate step of row 256 t + p of the features. A row's scores read that row of the
  features only, so the block a point writes back is the point's block of ONE array, the three-gate form `K` of the
  five input arrays; the 256 blocks tile the 65536 rows, so after the launch the scores array IS that array.
-/
import proofs.«107645_j42107859370787_1_alg».proof.Proof.FrameI
import proofs.«107645_j42107859370787_1_alg».proof.Proof.Payload
import proofs.«107645_j42107859370787_1_alg».proof.Proof.Spec
import Idealize.ShloMosaic.Lib.Pipeline.Value
import Idealize.ShloMosaic.Lib.ValueIdx

set_option maxRecDepth 16384

noncomputable section

namespace Cert.KernelIdeal.Scores

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

open Cert.KernelIdeal.Payload

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the features' and the scores' block is the grid point's number, the four
    parameter arrays are one block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The scores array after the launch: the three-gate form of the five input arrays as the launch finds them. -/
def KA (c : Dev nD) : S65536x43.Idx → EReal :=
  Cert.Lstm.K (R := 65536) (V m c main_v40) (V m c main_v32) (V m c main_v37) (V m c main_v38) (V m c main_v39)

/-- A parameter array's one block is the array. -/
theorem blk1 (c : Dev nD) (t : Fin cfg0.N) : (iblk m c 1 t : S498x3072.Idx → EReal) = V m c main_v32 := by
  obtain ⟨-, -, e0, e1, -⟩ := idx_facts t
  funext y
  have e : ((cfg0.win 1).blk t).view.emb y = y := by
    funext a; apply Fin.ext
    match a with
    | ⟨0, _⟩ => show win0_1.index t (0 : Fin 2) * 498 + 1 * (y 0).val = (y 0).val; rw [e0]; omega
    | ⟨1, _⟩ => show win0_1.index t (1 : Fin 2) * 3072 + 1 * (y 1).val = (y 1).val; rw [e1]; omega
  show V m c main_v32 (((cfg0.win 1).blk t).view.emb y) = V m c main_v32 y
  rw [e]
theorem blk2 (c : Dev nD) (t : Fin cfg0.N) : (iblk m c 2 t : S1x3072.Idx → EReal) = V m c main_v37 := by
  obtain ⟨-, -, -, -, e0, e1, -⟩ := idx_facts t
  funext y
  have e : ((cfg0.win 2).blk t).view.emb y = y := by
    funext a; apply Fin.ext
    match a with
    | ⟨0, _⟩ => show win0_2.index t (0 : Fin 2) * 1 + 1 * (y 0).val = (y 0).val; rw [e0]; omega
    | ⟨1, _⟩ => show win0_2.index t (1 : Fin 2) * 3072 + 1 * (y 1).val = (y 1).val; rw [e1]; omega
  show V m c main_v37 (((cfg0.win 2).blk t).view.emb y) = V m c main_v37 y
  rw [e]
theorem blk3 (c : Dev nD) (t : Fin cfg0.N) : (iblk m c 3 t : S1024x43.Idx → EReal) = V m c main_v38 := by
  obtain ⟨-, -, -, -, -, -, e0, e1, -⟩ := idx_facts t
  funext y
  have e : ((cfg0.win 3).blk t).view.emb y = y := by
    funext a; apply Fin.ext
    match a with
    | ⟨0, _⟩ => show win0_3.index t (0 : Fin 2) * 1024 + 1 * (y 0).val = (y 0).val; rw [e0]; omega
    | ⟨1, _⟩ => show win0_3.index t (1 : Fin 2) * 43 + 1 * (y 1).val = (y 1).val; rw [e1]; omega
  show V m c main_v38 (((cfg0.win 3).blk t).view.emb y) = V m c main_v38 y
  rw [e]
theorem blk4 (c : Dev nD) (t : Fin cfg0.N) : (iblk m c 4 t : S1x43.Idx → EReal) = V m c main_v39 := by
  obtain ⟨-, -, -, -, -, -, -, -, e0, e1, -⟩ := idx_facts t
  funext y
  have e : ((cfg0.win 4).blk t).view.emb y = y := by
    funext a; apply Fin.ext
    match a with
    | ⟨0, _⟩ => show win0_4.index t (0 : Fin 2) * 1 + 1 * (y 0).val = (y 0).val; rw [e0]; omega
    | ⟨1, _⟩ => show win0_4.index t (1 : Fin 2) * 43 + 1 * (y 1).val = (y 1).val; rw [e1]; omega
  show V m c main_v39 (((cfg0.win 4).blk t).view.emb y) = V m c main_v39 y
  rw [e]

/-- Row p of the features' block at point t is row 256 t + p of the features. -/
theorem blk0 (c : Dev nD) (t : Fin cfg0.N) (p : Fin 256) (k : Fin 498) (r : Fin 65536) (hr : r.val = t.val * 256 + p.val) :
    (iblk m c 0 t : S256x498.Idx → EReal) (ix2 p k) = (V m c main_v40 : S65536x498.Idx → EReal) (ix2 r k) := by
  obtain ⟨e0, e1, -⟩ := idx_facts t
  have e : ((cfg0.win 0).blk t).view.emb (ix2 p k) = ix2 r k := by
    funext a; apply Fin.ext
    match a with
    | ⟨0, _⟩ => show win0_0.index t (0 : Fin 2) * 256 + 1 * p.val = r.val; rw [e0, hr]; omega
    | ⟨1, _⟩ => show win0_0.index t (1 : Fin 2) * 498 + 1 * k.val = k.val; rw [e1]; omega
  show V m c main_v40 (((cfg0.win 0).blk t).view.emb (ix2 p k)) = V m c main_v40 (ix2 r k)
  rw [e]

/-- What point t writes back is the point's block of `KA`. -/
theorem flushed_eq (c : Dev nD) (t : Fin cfg0.N) :
    (dats m 0 c).flushed 5 t = ((cfg0.win 5).blk t).view.read (Elt Ideal) (KA m c) := by
  show (cfg0.win 5).cut (grid0.coords t) ((dats m 0 c).after 5 t) = _
  rw [after0_5]
  unfold out0_5
  rw [View.canon_unit_zero hz]
  simp only [View.ld_unit_zero (S := S256x498) hz, View.ld_unit_zero (S := S498x3072) hz, View.ld_unit_zero (S := S1x3072) hz,
    View.ld_unit_zero (S := S1024x43) hz, View.ld_unit_zero (S := S1x43) hz]
  obtain ⟨-, -, -, -, -, -, -, -, -, -, e0, e1⟩ := idx_facts t
  have hN : cfg0.N = 256 := N_0
  have ht : t.val < 256 := by have := t.isLt; omega
  funext j
  obtain ⟨p, q, rfl⟩ : ∃ (p : Fin 256) (q : Fin 43), j = ix2 p q := ⟨j 0, j 1, eq_ix2 j⟩
  have hp : p.val < 256 := p.isLt
  have hemb : ((cfg0.win 5).blk t).view.emb (ix2 p q) = ix2 (⟨t.val * 256 + p.val, by omega⟩ : Fin 65536) q := by
    funext a; apply Fin.ext
    match a with
    | ⟨0, _⟩ => show win0_5.index t (0 : Fin 2) * 256 + 1 * p.val = t.val * 256 + p.val; rw [e0]; omega
    | ⟨1, _⟩ => show win0_5.index t (1 : Fin 2) * 43 + 1 * q.val = q.val; rw [e1]; omega
  show k0_pay1 (F := Ideal) (iblk m c 0 t) (iblk m c 1 t) (iblk m c 2 t) (iblk m c 3 t) (iblk m c 4 t) (ix2 p q)
    = KA m c (((cfg0.win 5).blk t).view.emb (ix2 p q))
  rw [hemb]
  unfold KA
  rw [Cert.Lstm.K_ix2]
  refine (pay_apply _ _ _ _ _ p q).trans ?_
  rw [blk1, blk2, blk3, blk4]
  exact Cert.Lstm.Kat_congr_row _ _ _ _ _ _ p _ (fun k => blk0 m c t p k _ rfl) q

/-- An index of the scores array is in point t's block iff its row is one of the point's 256. -/
theorem mem_blk (t : Fin cfg0.N) (i : S65536x43.Idx) :
    i ∈ ((cfg0.win 5).blk t).view.set ↔ ∀ a : Fin 2, win0_5.index t a * S256x43.size a ≤ (i a).val ∧ (i a).val < win0_5.index t a * S256x43.size a + S256x43.size a := by
  show i ∈ ((View.whole main_v41).slice (win0_5.rect t)).set ↔ _
  rw [View.set_slice_whole, Rect.mem_set_unit]
  exact Iff.rfl

/-- Every row is some point's: row r is point r / 256's. -/
theorem cover (i : S65536x43.Idx) : ∃ t : Fin cfg0.N, (cfg0.win 5).flush t = true ∧ i ∈ ((cfg0.win 5).blk t).view.set := by
  have hN : cfg0.N = 256 := N_0
  have hi0 : (i 0).val < 65536 := (i 0).isLt
  have hi1 : (i 1).val < 43 := (i 1).isLt
  refine ⟨⟨(i 0).val / 256, by omega⟩, flush0_5 _, ?_⟩
  rw [mem_blk]
  obtain ⟨-, -, -, -, -, -, -, -, -, -, e0, e1⟩ := idx_facts (⟨(i 0).val / 256, by omega⟩ : Fin cfg0.N)
  intro a
  match a with
  | ⟨0, _⟩ => show win0_5.index _ (0 : Fin 2) * 256 ≤ (i 0).val ∧ (i 0).val < win0_5.index _ (0 : Fin 2) * 256 + 256; rw [e0]; show (i 0).val / 256 * 256 ≤ (i 0).val ∧ (i 0).val < (i 0).val / 256 * 256 + 256; omega
  | ⟨1, _⟩ => show win0_5.index _ (1 : Fin 2) * 43 ≤ (i 1).val ∧ (i 1).val < win0_5.index _ (1 : Fin 2) * 43 + 43; rw [e1]; omega

/-- The scores array after the launch is `KA`. -/
theorem final (c : Dev nD) : (dats m 0 c).arrAt 5 cfg0.N = KA m c :=
  (dats m 0 c).arrAt_eq_of_cover 5 (KA m c) (fun t _ => flushed_eq m c t) cover

end Cert.KernelIdeal.Scores

end
-- ==== Proof.LibConcatParts.lean ====
/-
  Joins of two, three and four arrays as functions of their parts, and what a host line that joins three or four
  buffers leaves in its result.

  The join operation takes its parts as a list of arrays, each paired with its shape, and a side condition stated
  over that list's shapes; a statement about one part therefore cannot be rewritten in place. Read as a function of
  the parts, with the side condition stated over the shapes alone, the parts are ordinary arguments, and a term that
  evaluates the buffers a program's lines write, one rewriting pass at a time, goes on through a join's operands
  instead of stopping at it. The parts may have different shapes (they differ along the joined axis).
-/
import Idealize.ShloMosaic.PureOps
import Idealize.ShloMosaic.Lib.StableHlo.Run

namespace Cert.LibConcatParts

open Idealize.ShloMosaic Idealize.ShloMosaic.StableHlo

/-- The join of two parts along axis `a` of the result shape `t`, as a function of the parts. -/
def cat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- The join of three parts. -/
def cat3 {α : Type} (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h

/-- The join of four parts. -/
def cat4 {α : Type} (t : Shape) (a : Fin t.rank) (s₁ s₂ s₃ s₄ : Shape) (h : Shape.Concatenates [s₁, s₂, s₃, s₄] t a)
    (x₁ : s₁.Idx → α) (x₂ : s₂.Idx → α) (x₃ : s₃.Idx → α) (x₄ : s₄.Idx → α) : t.Idx → α :=
  concatenate t a [⟨s₁, x₁⟩, ⟨s₂, x₂⟩, ⟨s₃, x₃⟩, ⟨s₄, x₄⟩] h

theorem concatenate_two {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = cat2 t a s₁ s₂ h x₁ x₂ := rfl

theorem concatenate_three {α : Type} (t : Shape) (a : Fin t.rank) (s₁ s₂ s₃ : Shape) (x₁ : s₁.Idx → α) (x₂ : s₂.Idx → α)
    (x₃ : s₃.Idx → α) (h : Shape.Concatenates [s₁, s₂, s₃] t a) :
    concatenate t a [⟨s₁, x₁⟩, ⟨s₂, x₂⟩, ⟨s₃, x₃⟩] h = cat3 t a s₁ s₂ s₃ h x₁ x₂ x₃ := rfl

theorem concatenate_four {α : Type} (t : Shape) (a : Fin t.rank) (s₁ s₂ s₃ s₄ : Shape) (x₁ : s₁.Idx → α) (x₂ : s₂.Idx → α)
    (x₃ : s₃.Idx → α) (x₄ : s₄.Idx → α) (h : Shape.Concatenates [s₁, s₂, s₃, s₄] t a) :
    concatenate t a [⟨s₁, x₁⟩, ⟨s₂, x₂⟩, ⟨s₃, x₃⟩, ⟨s₄, x₄⟩] h = cat4 t a s₁ s₂ s₃ s₄ h x₁ x₂ x₃ x₄ := rfl

section Lines

variable {τ : Topo} {sig : RefSig} {Val : EltTy → Type}
variable {x a b c y : Ref sig .tc}

/-- A host line over a literal family of THREE buffers leaves in its result buffer its function of the three
    buffers' contents, each read at its own buffer. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Lines

end Cert.LibConcatParts
-- ==== Proof.KHost.lean ====
/-
  What the kernel's launch finds in its five input arrays, as functions of the program's arguments.

  Before the launch the host lines look three tables up, lay the features out and pad them, cut the forget gate's
  quarter out of the weights and the bias, and reshape the dense layer's bias into a row. Each input array of the launch is
  therefore one composed function of the arguments; this module evaluates the host lines once per array and names
  the results. The joins are read as functions of their parts so that the evaluation passes through them.
-/
import proofs.«107645_j42107859370787_1_alg».proof.Proof.FrameI
import proofs.«107645_j42107859370787_1_alg».proof.Proof.LibConcatParts
import Idealize.ShloMosaic.Lib.StableHlo.Run

set_option maxRecDepth 16384

noncomputable section

namespace Cert.KernelIdeal.Host

open Cert.KernelIdeal Cert.KernelIdeal.Gen Cert.KernelIdeal.Hand Cert.LibConcatParts
open Idealize.ShloMosaic Idealize.ShloMosaic.TcCoe Idealize.SL.Sem

variable {F : FTy → Type} [FloatOps F]

/-- The feature rows [128, 511, 498]: at each position but a sequence's first, the word's, the tag's and the
    previous label's table rows and the morphology vector side by side (a row of ones stands for the label before the first). -/
def feats (x0 x1 : (⟨S128x512, .i32⟩ : BufTy).Contents (Elt F)) (x2 : (⟨S128x512x66, .f32⟩ : BufTy).Contents (Elt F))
    (x3 : (⟨S128x512, .i32⟩ : BufTy).Contents (Elt F)) (x4 : (⟨S50000x300, .f32⟩ : BufTy).Contents (Elt F))
    (x5 : (⟨S37x32, .f32⟩ : BufTy).Contents (Elt F)) (x6 : (⟨S43x100, .f32⟩ : BufTy).Contents (Elt F)) :
    (⟨S128x511x498, .f32⟩ : BufTy).Contents (Elt F) :=
  extractStridedSlice S128x511x498 ![0, 1, 0]
    (cat4 S128x512x498 2 S128x512x300 S128x512x32 S128x512x66 S128x512x100
      concatenates_S128x512x300_S128x512x32_S128x512x66_S128x512x100_S128x512x498_d2
      (Host.gather gather_S50000x300_S128x512x1_S128x512x300_2_0_n_n_0_2_1300 x4
        (broadcastInDim S128x512x1 ![0, 1] bcast_S128x512_S128x512x1_0_1
          (select (cmpi .slt x0 (broadcastInDim S128x512 ![] bcast_S_S128x512 (constantI S_ 32 0#32)))
            (addi x0 (broadcastInDim S128x512 ![] bcast_S_S128x512 (constantI S_ 32 50000#32))) x0)))
      (Host.gather gather_S37x32_S128x512x1_S128x512x32_2_0_n_n_0_2_132 x5
        (broadcastInDim S128x512x1 ![0, 1] bcast_S128x512_S128x512x1_0_1
          (select (cmpi .slt x1 (broadcastInDim S128x512 ![] bcast_S_S128x512 (constantI S_ 32 0#32)))
            (addi x1 (broadcastInDim S128x512 ![] bcast_S_S128x512 (constantI S_ 32 37#32))) x1)))
      x2
      (cat2 S128x512x100 1 S128x1x100 S128x511x100 concatenates_S128x1x100_S128x511x100_S128x512x100_d1
        (broadcastInDim S128x1x100 ![] bcast_S_S128x1x100 (constant S_ .f32 0x3F800000#32))
        (Host.gather gather_S43x100_S128x511x1_S128x511x100_2_0_n_n_0_2_1100 x6
          (broadcastInDim S128x511x1 ![0, 1] bcast_S128x511_S128x511x1_0_1
            (select (cmpi .slt (extractStridedSlice S128x511 ![0, 0] x3 slices_S128x512_S128x511_0_0)
                (broadcastInDim S128x511 ![] bcast_S_S128x511 (constantI S_ 32 0#32)))
              (addi (extractStridedSlice S128x511 ![0, 0] x3 slices_S128x512_S128x511_0_0)
                (broadcastInDim S128x511 ![] bcast_S_S128x511 (constantI S_ 32 43#32)))
              (extractStridedSlice S128x511 ![0, 0] x3 slices_S128x512_S128x511_0_0))))))
    slices_S128x512x498_S128x511x498_0_1_0

variable (m : (ℓ : Loc nD τ sig) → Buf (Elt F) ℓ)

/-- The line joining the four feature parts leaves the join of the four buffers' contents. -/
theorem v24_result (G : Valuation τ sig (Elt F)) :
    (StableHlo.nary ![main_v6, main_v13, main_arg2, main_v23] main_v24 (fun u => concatenate S128x512x498 2 [⟨S128x512x300, u 0⟩, ⟨S128x512x32, u 1⟩, ⟨S128x512x66, u 2⟩, ⟨S128x512x100, u 3⟩] concatenates_S128x512x300_S128x512x32_S128x512x66_S128x512x100_S128x512x498_d2) : HloOp τ sig (Elt F)).result G (no_index (Proc.devRef .tc main_v24))
      = cat4 S128x512x498 2 S128x512x300 S128x512x32 S128x512x66 S128x512x100 concatenates_S128x512x300_S128x512x32_S128x512x66_S128x512x100_S128x512x498_d2
          (G (Proc.devRef .tc main_v6)) (G (Proc.devRef .tc main_v13)) (G (Proc.devRef .tc main_arg2)) (G (Proc.devRef .tc main_v23)) := by
  rw [StableHlo.nary_result]; rfl
/-- The line joining the three kept weight quarters. -/
theorem v31_result (G : Valuation τ sig (Elt F)) :
    (StableHlo.nary ![main_v28, main_v29, main_v30] main_v31 (fun u => concatenate S498x3072 1 [⟨S498x1024, u 0⟩, ⟨S498x1024, u 1⟩, ⟨S498x1024, u 2⟩] concatenates_S498x1024_S498x1024_S498x1024_S498x3072_d1) : HloOp τ sig (Elt F)).result G (no_index (Proc.devRef .tc main_v31))
      = cat3 S498x3072 1 S498x1024 S498x1024 S498x1024 concatenates_S498x1024_S498x1024_S498x1024_S498x3072_d1
          (G (Proc.devRef .tc main_v28)) (G (Proc.devRef .tc main_v29)) (G (Proc.devRef .tc main_v30)) := by
  rw [StableHlo.nary_result]; rfl
/-- The line joining the three kept bias quarters. -/
theorem v36_result (G : Valuation τ sig (Elt F)) :
    (StableHlo.nary ![main_v33, main_v34, main_v35] main_v36 (fun u => concatenate S3072 0 [⟨S1024, u 0⟩, ⟨S1024, u 1⟩, ⟨S1024, u 2⟩] concatenates_S1024_S1024_S1024_S3072_d0) : HloOp τ sig (Elt F)).result G (no_index (Proc.devRef .tc main_v36))
      = cat3 S3072 0 S1024 S1024 S1024 concatenates_S1024_S1024_S1024_S3072_d0
          (G (Proc.devRef .tc main_v33)) (G (Proc.devRef .tc main_v34)) (G (Proc.devRef .tc main_v35)) := by
  rw [StableHlo.nary_result]; rfl

/-- The launch's feature array: the feature rows laid out as 65408 rows, rounded to the kernel's input format and
    padded below with 128 rows of the padding value. -/
theorem V_v40 (c : Dev nD) : (V m c main_v40 : (⟨S65536x498, .bf16⟩ : BufTy).Contents (Elt F))
    = pad S65536x498 ![0, 0] ![128, 0] ![0, 0]
        (truncf .bf16 (shapeCast S65408x498
          (feats (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))) shapeCasts_S128x511x498_S65408x498) bitsLt_bf16_f32)
        (sitofp .bf16 (constantI S_ 32 0#32) : FVec F S_ .bf16) pads_S65408x498_S65536x498_01280_000 h_S_ := by
  dsimp only [V, V0]
  simp (disch := decide) only [hostOps0, hostOps0_1, List.flatten_cons, List.flatten_nil, List.append_nil, List.cons_append, List.nil_append,
    StableHlo.TRef.unary, StableHlo.TRef.binary, StableHlo.after_cons, StableHlo.after_nil,
    v24_result, v31_result, v36_result,
    StableHlo.nullary_result', StableHlo.unary_result', StableHlo.binary_result', StableHlo.ternary_result', StableHlo.quaternary_result',
    StableHlo.reshape_result',
    StableHlo.nullary_result_ne', StableHlo.unary_result_ne', StableHlo.binary_result_ne', StableHlo.ternary_result_ne',
    StableHlo.quaternary_result_ne', StableHlo.reshape_result_ne', StableHlo.nary_result_ne',
    concatenate_two]
  first | done | rfl

/-- The launch's weights: the three kept quarters of the four-gate weights side by side. -/
theorem V_v32 (c : Dev nD) : (V m c main_v32 : (⟨S498x3072, .bf16⟩ : BufTy).Contents (Elt F))
    = truncf .bf16 (concatenate S498x3072 1 [⟨S498x1024, extractStridedSlice S498x1024 ![0, 0] (m ((c : Thread nD τ).loc main_arg7)) slices_S498x4096_S498x1024_0_0⟩, ⟨S498x1024, extractStridedSlice S498x1024 ![0, 2048] (m ((c : Thread nD τ).loc main_arg7)) slices_S498x4096_S498x1024_0_2048⟩, ⟨S498x1024, extractStridedSlice S498x1024 ![0, 3072] (m ((c : Thread nD τ).loc main_arg7)) slices_S498x4096_S498x1024_0_3072⟩] concatenates_S498x1024_S498x1024_S498x1024_S498x3072_d1) bitsLt_bf16_f32 := by
  dsimp only [V, V0]
  simp (disch := decide) only [hostOps0, hostOps0_1, List.flatten_cons, List.flatten_nil, List.append_nil, List.cons_append, List.nil_append,
    StableHlo.TRef.unary, StableHlo.TRef.binary, StableHlo.after_cons, StableHlo.after_nil,
    v24_result, v31_result, v36_result,
    StableHlo.nullary_result', StableHlo.unary_result', StableHlo.binary_result', StableHlo.ternary_result', StableHlo.quaternary_result',
    StableHlo.reshape_result',
    StableHlo.nullary_result_ne', StableHlo.unary_result_ne', StableHlo.binary_result_ne', StableHlo.ternary_result_ne',
    StableHlo.quaternary_result_ne', StableHlo.reshape_result_ne', StableHlo.nary_result_ne',
    concatenate_two]
  first | done | rfl

/-- The launch's bias row: the three kept quarters of the bias end to end, as a row. -/
theorem V_v37 (c : Dev nD) : (V m c main_v37 : (⟨S1x3072, .f32⟩ : BufTy).Contents (Elt F))
    = shapeCast S1x3072 (concatenate S3072 0 [⟨S1024, extractStridedSlice S1024 ![0] (m ((c : Thread nD τ).loc main_arg9)) slices_S4096_S1024_0⟩, ⟨S1024, extractStridedSlice S1024 ![2048] (m ((c : Thread nD τ).loc main_arg9)) slices_S4096_S1024_2048⟩, ⟨S1024, extractStridedSlice S1024 ![3072] (m ((c : Thread nD τ).loc main_arg9)) slices_S4096_S1024_3072⟩] concatenates_S1024_S1024_S1024_S3072_d0) shapeCasts_S3072_S1x3072 := by
  dsimp only [V, V0]
  simp (disch := decide) only [hostOps0, hostOps0_1, List.flatten_cons, List.flatten_nil, List.append_nil, List.cons_append, List.nil_append,
    StableHlo.TRef.unary, StableHlo.TRef.binary, StableHlo.after_cons, StableHlo.after_nil,
    v24_result, v31_result, v36_result,
    StableHlo.nullary_result', StableHlo.unary_result', StableHlo.binary_result', StableHlo.ternary_result', StableHlo.quaternary_result',
    StableHlo.reshape_result',
    StableHlo.nullary_result_ne', StableHlo.unary_result_ne', StableHlo.binary_result_ne', StableHlo.ternary_result_ne',
    StableHlo.quaternary_result_ne', StableHlo.reshape_result_ne', StableHlo.nary_result_ne',
    concatenate_two]
  first | done | rfl

/-- The launch's dense weights: the argument's, rounded to the kernel's input format. -/
theorem V_v38 (c : Dev nD) : (V m c main_v38 : (⟨S1024x43, .bf16⟩ : BufTy).Contents (Elt F))
    = truncf .bf16 (m ((c : Thread nD τ).loc main_arg10)) bitsLt_bf16_f32 := by
  dsimp only [V, V0]
  simp (disch := decide) only [hostOps0, hostOps0_1, List.flatten_cons, List.flatten_nil, List.append_nil, List.cons_append, List.nil_append,
    StableHlo.TRef.unary, StableHlo.TRef.binary, StableHlo.after_cons, StableHlo.after_nil,
    v24_result, v31_result, v36_result,
    StableHlo.nullary_result', StableHlo.unary_result', StableHlo.binary_result', StableHlo.ternary_result', StableHlo.quaternary_result',
    StableHlo.reshape_result',
    StableHlo.nullary_result_ne', StableHlo.unary_result_ne', StableHlo.binary_result_ne', StableHlo.ternary_result_ne',
    StableHlo.quaternary_result_ne', StableHlo.reshape_result_ne', StableHlo.nary_result_ne',
    concatenate_two]
  first | done | rfl

/-- The launch's dense bias row: the argument's, as a row. -/
theorem V_v39 (c : Dev nD) : (V m c main_v39 : (⟨S1x43, .f32⟩ : BufTy).Contents (Elt F))
    = shapeCast S1x43 (m ((c : Thread nD τ).loc main_arg11)) shapeCasts_S43_S1x43 := by
  dsimp only [V, V0]
  simp (disch := decide) only [hostOps0, hostOps0_1, List.flatten_cons, List.flatten_nil, List.append_nil, List.cons_append, List.nil_append,
    StableHlo.TRef.unary, StableHlo.TRef.binary, StableHlo.after_cons, StableHlo.after_nil,
    v24_result, v31_result, v36_result,
    StableHlo.nullary_result', StableHlo.unary_result', StableHlo.binary_result', StableHlo.ternary_result', StableHlo.quaternary_result',
    StableHlo.reshape_result',
    StableHlo.nullary_result_ne', StableHlo.unary_result_ne', StableHlo.binary_result_ne', StableHlo.ternary_result_ne',
    StableHlo.quaternary_result_ne', StableHlo.reshape_result_ne', StableHlo.nary_result_ne',
    concatenate_two]
  first | done | rfl

end Cert.KernelIdeal.Host

end
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.LibTripleJoin.lean ====
/-
  Three arrays laid end to end along an axis, read at an index.

  The join of three pieces along axis `a` finds where the axis coordinate falls among the pieces' extents `n₁, n₂, n₃`:
  below `n₁` it reads the first piece at the same coordinates; from `n₁` and below `n₁ + n₂` the second piece, the axis
  coordinate `n₁` less; from `n₁ + n₂` on the third piece, the axis coordinate `n₁ + n₂` less. For any shapes and any
  axis, and in particular for three vectors: an edge list followed by two lists of candidate edges.
-/
import Idealize.ShloMosaic.Lib.Pipeline.Value
import Idealize.ShloMosaic.Lib.ValueIdx

noncomputable section

namespace Cert.LibTripleJoin

open Idealize.ShloMosaic Idealize.ShloMosaic.ValueIdx

variable {α : Type}

/-- Where a position below the first extent falls: the first piece, at that position. -/
theorem locate_triple_fst (n₁ n₂ n₃ c : Nat) (h : c < [n₁, n₂, n₃].sum) (hc : c < n₁) :
    locate [n₁, n₂, n₃] c h = ⟨⟨0, by simp⟩, ⟨c, hc⟩⟩ := by
  rw [locate, dif_pos hc]

/-- Where a position from the first extent on and below the first two falls: the second piece, the first extent less. -/
theorem locate_triple_snd (n₁ n₂ n₃ c : Nat) (h : c < [n₁, n₂, n₃].sum) (hc : n₁ ≤ c) (hc2 : c - n₁ < n₂) :
    locate [n₁, n₂, n₃] c h = ⟨⟨1, by simp⟩, ⟨c - n₁, hc2⟩⟩ := by
  rw [locate, dif_neg (Nat.not_lt.2 hc), locate, dif_pos hc2]
  rfl

/-- Where a position from the first two extents on falls: the third piece, the first two extents less. -/
theorem locate_triple_thd (n₁ n₂ n₃ c : Nat) (h : c < [n₁, n₂, n₃].sum) (hc : n₁ ≤ c) (hc2 : n₂ ≤ c - n₁) :
    locate [n₁, n₂, n₃] c h = ⟨⟨2, by simp⟩, ⟨c - n₁ - n₂, by simp at h ⊢; omega⟩⟩ := by
  have h3 : c - n₁ - n₂ < n₃ := by simp at h; omega
  rw [locate, dif_neg (Nat.not_lt.2 hc), locate, dif_neg (Nat.not_lt.2 hc2), locate, dif_pos h3]
  rfl

/-- The extent of a piece along the joined axis, as the definition of the join spells it. -/
private abbrev ext (t : Shape) (a : Fin t.rank) (s : Shape) : ℕ :=
  if h' : s.rank = t.rank then s.size (a.cast h'.symm) else 0

/-- A three-piece join at an index whose axis coordinate falls in the FIRST piece reads the first piece at the index
    with the same coordinates. -/
theorem concatenate_triple_apply_first {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank) (i : s₁.Idx)
    (hi : ∀ b : Fin s₁.rank, (i b).val = (j (b.cast hr₁)).val) :
    concatenate t a [⟨s₁, x₁⟩, ⟨s₂, x₂⟩, ⟨s₃, x₃⟩] h j = x₁ i := by
  have hlt : (j a).val < s₁.size (a.cast hr₁.symm) := by
    have := hi (a.cast hr₁.symm); have hb := (i (a.cast hr₁.symm)).isLt; simp at this; omega
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have HC : (j a).val < ext t a s₁ := by rw [hD₁]; exact hlt
  have HL := locate_triple_fst _ (ext t a s₂) (ext t a s₃) _ PF HC
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₁ i
  rw [HL]
  show x₁ _ = x₁ i
  congr 1
  funext b
  apply Fin.ext
  rw [hi b]
  split
  · next hb => rw [show Fin.cast hr₁ b = a from hb]; rfl
  · rfl

/-- A three-piece join at an index whose axis coordinate falls in the SECOND piece reads the second piece at the index
    with the same coordinates but on the axis, where it is the first piece's extent less. -/
theorem concatenate_triple_apply_second {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank)
    (hr₂' : s₂.rank = t.rank) (i : s₂.Idx)
    (hi : ∀ b : Fin s₂.rank, b.cast hr₂' ≠ a → (i b).val = (j (b.cast hr₂')).val)
    (ha : (i (a.cast hr₂'.symm)).val + s₁.size (a.cast hr₁.symm) = (j a).val) :
    concatenate t a [⟨s₁, x₁⟩, ⟨s₂, x₂⟩, ⟨s₃, x₃⟩] h j = x₂ i := by
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have hib := (i (a.cast hr₂'.symm)).isLt
  have HC : ext t a s₁ ≤ (j a).val := by rw [hD₁]; omega
  have HC2 : (j a).val - ext t a s₁ < ext t a s₂ := by rw [hD₁, hD₂]; omega
  have HL := locate_triple_snd _ _ (ext t a s₃) _ PF HC HC2
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₂ i
  rw [HL]
  show x₂ _ = x₂ i
  congr 1
  funext b
  apply Fin.ext
  split
  · next hb =>
    have eb : b = a.cast hr₂'.symm := Fin.ext (by have := congrArg Fin.val hb; simpa using this)
    subst eb
    show (j a).val - ext t a s₁ = _
    omega
  · next hb => exact (hi b hb).symm

/-- A three-piece join at an index whose axis coordinate falls in the THIRD piece reads the third piece at the index
    with the same coordinates but on the axis, where it is the first two pieces' extents less. -/
theorem concatenate_triple_apply_third {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank)
    (hr₂' : s₂.rank = t.rank) (hr₃' : s₃.rank = t.rank) (i : s₃.Idx)
    (hi : ∀ b : Fin s₃.rank, b.cast hr₃' ≠ a → (i b).val = (j (b.cast hr₃')).val)
    (ha : (i (a.cast hr₃'.symm)).val + s₁.size (a.cast hr₁.symm) + s₂.size (a.cast hr₂'.symm) = (j a).val) :
    concatenate t a [⟨s₁, x₁⟩, ⟨s₂, x₂⟩, ⟨s₃, x₃⟩] h j = x₃ i := by
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have HC : ext t a s₁ ≤ (j a).val := by rw [hD₁]; omega
  have HC2 : ext t a s₂ ≤ (j a).val - ext t a s₁ := by rw [hD₁, hD₂]; omega
  have HL := locate_triple_thd _ _ (ext t a s₃) _ PF HC HC2
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₃ i
  rw [HL]
  show x₃ _ = x₃ i
  congr 1
  funext b
  apply Fin.ext
  split
  · next hb =>
    have eb : b = a.cast hr₃'.symm := Fin.ext (by have := congrArg Fin.val hb; simpa using this)
    subst eb
    show (j a).val - ext t a s₁ - ext t a s₂ = _
    omega
  · next hb => exact (hi b hb).symm

/-! ## Three vectors end to end -/

/-- Three vectors end to end: entry `k'` below the first length is the first vector's. -/
theorem cat3_vec_first {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin a) (k' : Fin n) (hk : k'.val = k.val) :
    concatenate ⟨1, ![n]⟩ 0 [⟨⟨1, ![a]⟩, x⟩, ⟨⟨1, ![b]⟩, y⟩, ⟨⟨1, ![c]⟩, z⟩] h (ix1 k') = x (ix1 k) := by
  refine concatenate_triple_apply_first (0 : Fin 1) x y z h (ix1 k') rfl (ix1 k) fun b' => ?_
  match b' with
  | ⟨0, _⟩ => exact hk.symm

/-- Three vectors end to end: entry `a + k` is the second vector's entry `k`. -/
theorem cat3_vec_second {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin b) (k' : Fin n) (hk : k'.val = a + k.val) :
    concatenate ⟨1, ![n]⟩ 0 [⟨⟨1, ![a]⟩, x⟩, ⟨⟨1, ![b]⟩, y⟩, ⟨⟨1, ![c]⟩, z⟩] h (ix1 k') = y (ix1 k) := by
  refine concatenate_triple_apply_second (0 : Fin 1) x y z h (ix1 k') rfl rfl (ix1 k) (fun b' hb => ?_) ?_
  · match b' with
    | ⟨0, _⟩ => exact absurd rfl hb
  · show k.val + a = k'.val
    omega

/-- Three vectors end to end: entry `a + b + k` is the third vector's entry `k`. -/
theorem cat3_vec_third {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin c) (k' : Fin n) (hk : k'.val = a + b + k.val) :
    concatenate ⟨1, ![n]⟩ 0 [⟨⟨1, ![a]⟩, x⟩, ⟨⟨1, ![b]⟩, y⟩, ⟨⟨1, ![c]⟩, z⟩] h (ix1 k') = z (ix1 k) := by
  refine concatenate_triple_apply_third (0 : Fin 1) x y z h (ix1 k') rfl rfl rfl (ix1 k) (fun b' hb => ?_) ?_
  · match b' with
    | ⟨0, _⟩ => exact absurd rfl hb
  · show k.val + a + b = k'.val
    omega

end Cert.LibTripleJoin

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.HostLayout.lean ====
/-
  The host program's layout operations, read at coordinates.

  Before the kernel runs, the host lays its operands out: the [128, 511, 498] features become 65408 rows of 498
  (row b * 511 + s), are converted to the 16-bit format (at the extended reals a change of format is the identity) and
  padded at the bottom to 65536 rows; the four-gate weights [498, 4096] and bias [4096] lose the forget gate's quarter
  (three cuts of 1024 columns joined: kept column q is column `keep q`, which is q below 1024 and q + 1024 from there
  on), the bias then laid out as a row [1, 3072]; the dense layer's bias [43] is laid out as a row [1, 43]. After the
  kernel the first 65408 of the 65536 score rows are cut out and split back into [128, 511, 43]. Each lemma below reads
  one of these arrays at explicit coordinates and names the entry of the original array found there.
-/
import proofs.«107645_j42107859370787_1_alg».proof.KernelIdeal
import proofs.«107645_j42107859370787_1_alg».proof.Proof.Spec
import proofs.«107645_j42107859370787_1_alg».proof.Proof.LibMerge
import proofs.«107645_j42107859370787_1_alg».proof.Proof.LibTripleJoin
import proofs.«107645_j42107859370787_1_alg».proof.Proof.LibColsCut
import proofs.«107645_j42107859370787_1_alg».proof.Proof.LibRow
import Idealize.ShloMosaic.Lib.Pipeline.Value
import Idealize.ShloMosaic.Lib.ValueIdx
import Idealize.ShloMosaic.Lib.KernelVsHost

noncomputable section

namespace Cert.KernelIdeal.Layout

open Idealize.ShloMosaic Idealize.ShloMosaic.ValueIdx
open Cert.KernelIdeal Cert.KernelIdeal.Facts₀

variable [Cert.KernelIdeal.Facts]

/-- Where kept column `q` sits among the four-gate columns, as a number. -/
theorem keep_val_lt (q : Fin 3072) (h : q.val < 1024) : (Cert.Lstm.keep q).val = q.val := by
  unfold Cert.Lstm.keep; rw [dif_pos h]

theorem keep_val_ge (q : Fin 3072) (h : ¬ q.val < 1024) : (Cert.Lstm.keep q).val = q.val + 1024 := by
  unfold Cert.Lstm.keep; rw [dif_neg h]

/-- Row `r = b * 511 + s` of the laid-out, converted and padded features is the feature row of position `(b, s)`:
    the row is above the padding (`r < 65408`), the conversion is the identity, and merging the two leading axes
    keeps the entries in order. -/
theorem feat_row (X : FVec Ideal S128x511x498 .f32) (v : FVec Ideal S_ .bf16) (b : Fin 128) (s : Fin 511) (k : Fin 498)
    (r : Fin 65536) (hr : r.val = b.val * 511 + s.val) :
    pad S65536x498 ![0, 0] ![128, 0] ![0, 0]
      (truncf .bf16 (shapeCast S65408x498 X shapeCasts_S128x511x498_S65408x498) bitsLt_bf16_f32) v
      pads_S65408x498_S65536x498_01280_000 h_S_ (ix2 r k) = X (ix3 b s k) := by
  have hr' : r.val < 65408 := by have := b.isLt; have := s.isLt; omega
  refine (pad_apply_of_inside ![0, 0] ![128, 0] ![0, 0] _ v pads_S65408x498_S65536x498_01280_000 h_S_ (ix2 r k)
    (ix2 (⟨r.val, hr'⟩ : Fin 65408) k) (fun a => ?_)).trans ?_
  · match a with
    | ⟨0, _⟩ => show r.val = 0 + r.val * (0 + 1); omega
    | ⟨1, _⟩ => show k.val = 0 + k.val * (0 + 1); omega
  · refine (truncf_apply _ bitsLt_bf16_f32 _).trans ?_
    exact shapeCast_nab_mb_apply X shapeCasts_S128x511x498_S65408x498 b s k (⟨r.val, hr'⟩ : Fin 65408) hr

/-- Column `q` of the joined and converted weights is column `keep q` of the four-gate weights: below 1024 the
    first cut (offset 0), from 1024 and below 2048 the second (offset 2048), from 2048 on the third (offset 3072). -/
theorem wx_cols (W : FVec Ideal S498x4096 .f32) (k : Fin 498) (q : Fin 3072) :
    truncf .bf16 (concatenate S498x3072 1
      [⟨S498x1024, extractStridedSlice S498x1024 ![0, 0] W slices_S498x4096_S498x1024_0_0⟩,
       ⟨S498x1024, extractStridedSlice S498x1024 ![0, 2048] W slices_S498x4096_S498x1024_0_2048⟩,
       ⟨S498x1024, extractStridedSlice S498x1024 ![0, 3072] W slices_S498x4096_S498x1024_0_3072⟩]
      concatenates_S498x1024_S498x1024_S498x1024_S498x3072_d1) bitsLt_bf16_f32 (ix2 k q)
      = W (ix2 k (Cert.Lstm.keep q)) := by
  refine (truncf_apply _ bitsLt_bf16_f32 _).trans ?_
  have hq := q.isLt
  by_cases h1 : q.val < 1024
  · refine (Cert.LibTripleJoin.concatenate_triple_apply_first _ _ _ _
      concatenates_S498x1024_S498x1024_S498x1024_S498x3072_d1 (ix2 k q) rfl (ix2 k (⟨q.val, h1⟩ : Fin 1024))
      (fun b => ?_)).trans ?_
    · match b with
      | ⟨0, _⟩ => rfl
      | ⟨1, _⟩ => rfl
    · exact Cert.LibColsCut.slice_cols 0 W slices_S498x4096_S498x1024_0_0 k ⟨q.val, h1⟩ (Cert.Lstm.keep q)
        (by rw [keep_val_lt q h1]; show q.val = 0 + q.val; omega)
  · by_cases h2 : q.val < 2048
    · have h2' : q.val - 1024 < 1024 := by omega
      refine (Cert.LibTripleJoin.concatenate_triple_apply_second _ _ _ _
        concatenates_S498x1024_S498x1024_S498x1024_S498x3072_d1 (ix2 k q) rfl rfl
        (ix2 k (⟨q.val - 1024, h2'⟩ : Fin 1024)) (fun b hb => ?_) ?_).trans ?_
      · match b with
        | ⟨0, _⟩ => rfl
        | ⟨1, _⟩ => exact absurd rfl hb
      · show q.val - 1024 + 1024 = q.val
        omega
      · exact Cert.LibColsCut.slice_cols 2048 W slices_S498x4096_S498x1024_0_2048 k ⟨q.val - 1024, h2'⟩
          (Cert.Lstm.keep q) (by rw [keep_val_ge q h1]; show q.val + 1024 = 2048 + (q.val - 1024); omega)
    · have h3' : q.val - 2048 < 1024 := by omega
      refine (Cert.LibTripleJoin.concatenate_triple_apply_third _ _ _ _
        concatenates_S498x1024_S498x1024_S498x1024_S498x3072_d1 (ix2 k q) rfl rfl rfl
        (ix2 k (⟨q.val - 2048, h3'⟩ : Fin 1024)) (fun b hb => ?_) ?_).trans ?_
      · match b with
        | ⟨0, _⟩ => rfl
        | ⟨1, _⟩ => exact absurd rfl hb
      · show q.val - 2048 + 1024 + 1024 = q.val
        omega
      · exact Cert.LibColsCut.slice_cols 3072 W slices_S498x4096_S498x1024_0_3072 k ⟨q.val - 2048, h3'⟩
          (Cert.Lstm.keep q) (by rw [keep_val_ge q h1]; show q.val + 1024 = 3072 + (q.val - 2048); omega)

/-- A cut of a vector from offset `off`, read at `p`, is the vector at `off + p`. -/
theorem cut_vec {N n : ℕ} {α : Type} (off : ℕ) (x : (⟨1, ![N]⟩ : Shape).Idx → α)
    (h : (⟨1, ![N]⟩ : Shape).Slices ![off] ⟨1, ![n]⟩) (p : Fin n) (j : Fin N) (hj : j.val = off + p.val) :
    extractStridedSlice (⟨1, ![n]⟩ : Shape) ![off] x h (ix1 p) = x (ix1 j) :=
  extractStridedSlice_apply ![off] x h (ix1 p) (ix1 j) fun a => by
    match a with
    | ⟨0, _⟩ => show j.val = off + p.val; exact hj

/-- Entry `(0, q)` of the joined bias laid out as a row is entry `keep q` of the four-gate bias. -/
theorem bias_row (bv : FVec Ideal S4096 .f32) (q : Fin 3072) :
    shapeCast S1x3072 (concatenate S3072 0
      [⟨S1024, extractStridedSlice S1024 ![0] bv slices_S4096_S1024_0⟩,
       ⟨S1024, extractStridedSlice S1024 ![2048] bv slices_S4096_S1024_2048⟩,
       ⟨S1024, extractStridedSlice S1024 ![3072] bv slices_S4096_S1024_3072⟩]
      concatenates_S1024_S1024_S1024_S3072_d0) shapeCasts_S3072_S1x3072 (ix2 (0 : Fin 1) q)
      = bv (ix1 (Cert.Lstm.keep q)) := by
  refine (Cert.LibRow.row_apply _ shapeCasts_S3072_S1x3072 q).trans ?_
  have hq := q.isLt
  by_cases h1 : q.val < 1024
  · refine (Cert.LibTripleJoin.cat3_vec_first _ _ _ concatenates_S1024_S1024_S1024_S3072_d0
      (⟨q.val, h1⟩ : Fin 1024) q rfl).trans ?_
    exact cut_vec 0 bv slices_S4096_S1024_0 ⟨q.val, h1⟩ (Cert.Lstm.keep q)
      (by rw [keep_val_lt q h1]; show q.val = 0 + q.val; omega)
  · by_cases h2 : q.val < 2048
    · have h2' : q.val - 1024 < 1024 := by omega
      refine (Cert.LibTripleJoin.cat3_vec_second _ _ _ concatenates_S1024_S1024_S1024_S3072_d0
        (⟨q.val - 1024, h2'⟩ : Fin 1024) q (by show q.val = 1024 + (q.val - 1024); omega)).trans ?_
      exact cut_vec 2048 bv slices_S4096_S1024_2048 ⟨q.val - 1024, h2'⟩ (Cert.Lstm.keep q)
        (by rw [keep_val_ge q h1]; show q.val + 1024 = 2048 + (q.val - 1024); omega)
    · have h3' : q.val - 2048 < 1024 := by omega
      refine (Cert.LibTripleJoin.cat3_vec_third _ _ _ concatenates_S1024_S1024_S1024_S3072_d0
        (⟨q.val - 2048, h3'⟩ : Fin 1024) q (by show q.val = 1024 + 1024 + (q.val - 2048); omega)).trans ?_
      exact cut_vec 3072 bv slices_S4096_S1024_3072 ⟨q.val - 2048, h3'⟩ (Cert.Lstm.keep q)
        (by rw [keep_val_ge q h1]; show q.val + 1024 = 3072 + (q.val - 2048); omega)

/-- Entry `(0, j)` of the dense layer's bias laid out as a row is its entry `j`. -/
theorem bd_row (bd : FVec Ideal S43 .f32) (j : Fin 43) :
    shapeCast S1x43 bd shapeCasts_S43_S1x43 (ix2 (0 : Fin 1) j) = bd (ix1 j) :=
  Cert.LibRow.row_apply bd shapeCasts_S43_S1x43 j

/-- Entry `(b, s, j)` of the scores cut to 65408 rows and split into [128, 511, 43] is entry `(r, j)` of the
    65536-row scores, `r = b * 511 + s`: splitting the leading axis keeps the entries in order, and the cut starts
    at row 0 and column 0. -/
theorem out_rows (O : FVec Ideal S65536x43 .f32) (b : Fin 128) (s : Fin 511) (j : Fin 43) (r : Fin 65536)
    (hr : r.val = b.val * 511 + s.val) :
    shapeCast S128x511x43 (extractStridedSlice S65408x43 ![0, 0] O slices_S65536x43_S65408x43_0_0)
      shapeCasts_S65408x43_S128x511x43 (ix3 b s j) = O (ix2 r j) := by
  have hr' : r.val < 65408 := by have := b.isLt; have := s.isLt; omega
  refine (shapeCast_mb_nab_apply _ shapeCasts_S65408x43_S128x511x43 b s j (⟨r.val, hr'⟩ : Fin 65408) hr).trans ?_
  refine extractStridedSlice_apply ![0, 0] O slices_S65536x43_S65408x43_0_0 (ix2 (⟨r.val, hr'⟩ : Fin 65408) j)
    (ix2 r j) (fun a => ?_)
  match a with
  | ⟨0, _⟩ => show r.val = 0 + r.val; omega
  | ⟨1, _⟩ => show j.val = 0 + j.val; omega

end Cert.KernelIdeal.Layout

end
-- ==== Proof.KResult.lean ====
/-
  The kernel's program ends with its result at the four-gate form of the specification.

  After the launch the scores array is the three-gate form of the launch's five input arrays; the two closing host
  lines cut the 128 padding rows off and fold the 65408 rows back into [128, 511]. Entry (b, s, j) of the result is
  therefore row b * 511 + s, column j of the scores. That row of the launch's features is the position's feature
  row; the launch's weights and bias are the four-gate ones with the forget quarter cut out; the dense layer's are
  the arguments'. So the result is `G` of the feature rows and the four parameter arguments.
-/
import proofs.«107645_j42107859370787_1_alg».proof.Proof.KValue
import proofs.«107645_j42107859370787_1_alg».proof.Proof.KHost
import proofs.«107645_j42107859370787_1_alg».proof.Proof.HostLayout
import proofs.«107645_j42107859370787_1_alg».proof.Proof.Spec
import Idealize.ShloMosaic.Lib.StableHlo.Run

set_option maxRecDepth 16384

noncomputable section

namespace Cert.KernelIdeal.Result

open Cert.KernelIdeal Cert.KernelIdeal.Gen Cert.KernelIdeal.Hand Cert.KernelIdeal.Scores Cert.KernelIdeal.Host
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The program's result on core `c`, as a function of the arguments. -/
def scores (c : Dev nD) : S128x511x43.Idx → EReal :=
  Cert.Lstm.G (feats (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (m ((c : Thread nD τ).loc main_arg7)) (m ((c : Thread nD τ).loc main_arg9)) (m ((c : Thread nD τ).loc main_arg10))
    (m ((c : Thread nD τ).loc main_arg11))

/-- What the closing lines leave in the result buffer is `scores`. -/
theorem tail_eq (c : Dev nD) :
    Pipeline.afterTail₀ cfgs (dats m) 0 (V0 m) [hostOps1] c main_v43 = scores m c := by
  unfold Pipeline.afterTail₀
  show StableHlo.after hostOps1 _ (Proc.devRef .tc main_v43) = _
  after_results
  have e : Pipeline.withArrays (cfgs 0).spec c (V0 m c) (fun w => (dats m 0 c).arrAt w (cfgs 0).N) (Proc.devRef .tc main_v41) = KA m c :=
    (Pipeline.withArrays_arr spec0 launch0.win.arr_inj c _ _ 5).trans (final m c)
  rw [e]
  funext i
  obtain ⟨b, s, j, rfl⟩ : ∃ (b : Fin 128) (s : Fin 511) (j : Fin 43), i = ix3 b s j := ⟨i 0, i 1, i 2, eq_ix3 i⟩
  show shapeCast S128x511x43 (extractStridedSlice S65408x43 ![0, 0] (KA m c) slices_S65536x43_S65408x43_0_0) shapeCasts_S65408x43_S128x511x43 (ix3 b s j) = _
  have hb : b.val < 128 := b.isLt
  have hs : s.val < 511 := s.isLt
  refine (Cert.KernelIdeal.Layout.out_rows (KA m c) b s j (⟨b.val * 511 + s.val, by omega⟩ : Fin 65536) rfl).trans ?_
  unfold KA scores
  rw [Cert.Lstm.K_ix2, Cert.Lstm.G_ix3]
  refine Cert.Lstm.Kat_eq_Gat _ _ _ _ _ _ _ _ _ _ _ b s ?_ ?_ ?_ ?_ ?_ j
  · intro k; rw [V_v40]; exact Cert.KernelIdeal.Layout.feat_row _ _ b s k _ rfl
  · intro k q; rw [V_v32]; exact Cert.KernelIdeal.Layout.wx_cols _ k q
  · intro q; rw [V_v37]; exact Cert.KernelIdeal.Layout.bias_row _ q
  · intro u j'; rw [V_v38]; rfl
  · intro j'; rw [V_v39]; exact Cert.KernelIdeal.Layout.bd_row _ j'

/-- Every weakly fair execution of the kernel's program ends, faulting nowhere, with the result at `scores` and the
    arguments as given. -/
theorem run : θ_run defs (onTc (τ := τ) (main (F := Ideal))) ⟨m, fun _ => 0, ρ⟩ (fun r => ∀ c : Dev nD,
      r.2.mem ((c.tc : Thread nD τ).loc main_v43) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v43 (Pipeline.mem_restRefs_of main_v43 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.Result

end
-- ==== Proof.RefAt.lean ====
/-
  The reference program, from its feature array on, computes the specification G.

  Read at a position (b, s): the four-gate pre-activation array is the feature row times a weight column plus the
  bias; the gate quarters are cut at columns 0, 2048 and 3072; the sigmoid is spelt 1 / (1 + exp (-z)), which is the
  logistic function by definition once the constant 1.0 is read as the number one; the hidden row is
  σ(z_o) · tanh (σ(z_i) · tanh z_g); a dense layer with bias gives the scores. Sums and products appear in the same
  order as in the specification, so no law of the extended reals is used.
-/
import proofs.«107645_j42107859370787_1_alg».proof.Proof.Gen.ReferenceIdeal.Read
import proofs.«107645_j42107859370787_1_alg».proof.Proof.Spec
import Idealize.ShloMosaic.Lib.ValueIdx
import Idealize.ShloMosaic.PureOps.Ideal.Laws

noncomputable section

namespace Cert.ReferenceIdeal.RefAt

open Cert.ReferenceIdeal Cert.ReferenceIdeal.Read Idealize.ShloMosaic Idealize.ShloMosaic.ValueIdx

/-- The single-precision pattern 0x3F800000 denotes the number one. -/
theorem one_bits : Ideal.ofBits .f32 0x3F800000#32 = (1 : EReal) := by
  simp [Ideal.ofBits, Ideal.ieee, -EReal.coe_mul]; norm_num

/-- The spelt-out sigmoid, 1.0 / (1.0 + exp (-z)), is the logistic function. -/
theorem sigmoid_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  rw [Ideal.ofBits_def, one_bits]; rfl

/-- The pre-activation array at position (b, s), column g: the feature row times column g, plus the bias. -/
theorem pre_at (x0 x1 : (⟨S128x512, .i32⟩ : BufTy).Contents (Elt Ideal)) (x2 : (⟨S128x512x66, .f32⟩ : BufTy).Contents (Elt Ideal)) (x3 : (⟨S128x512, .i32⟩ : BufTy).Contents (Elt Ideal)) (x4 : (⟨S50000x300, .f32⟩ : BufTy).Contents (Elt Ideal)) (x5 : (⟨S37x32, .f32⟩ : BufTy).Contents (Elt Ideal)) (x6 : (⟨S43x100, .f32⟩ : BufTy).Contents (Elt Ideal)) (x7 : (⟨S498x4096, .f32⟩ : BufTy).Contents (Elt Ideal)) (x9 : (⟨S4096, .f32⟩ : BufTy).Contents (Elt Ideal)) (b : Fin 128) (s : Fin 511) (g : Fin 4096) :
    val_main_v29 (F := Ideal) x0 x1 x2 x3 x4 x5 x6 x7 x9 (ix3 b s g) = Cert.Lstm.zpre (val_main_v25 (F := Ideal) x0 x1 x2 x3 x4 x5 x6) x7 x9 b s g := by
  rw [val_main_v29_apply, val_main_v26_apply, val_main_v28_apply, val_main_v27_apply]
  have hl : ∀ k : Fin 498, lidx_main_v26 (ix3 b s g) k = ix3 b s k := fun k => funext fun a => Fin.ext (by match a with | ⟨0, _⟩ => rfl | ⟨1, _⟩ => rfl | ⟨2, _⟩ => rfl)
  have hr : ∀ k : Fin 498, ridx_main_v26 (ix3 b s g) k = ix2 k g := fun k => funext fun a => Fin.ext (by match a with | ⟨0, _⟩ => rfl | ⟨1, _⟩ => rfl)
  have hb : idx_main_v27 (idx_main_v28 (ix3 b s g)) = ix1 g := funext fun a => Fin.ext (by match a with | ⟨0, _⟩ => rfl)
  unfold Cert.Lstm.zpre
  exact congrArg₂ (· + ·) (Finset.sum_congr rfl fun k _ => by rw [hl k, hr k]) (congrArg x9 hb)

/-- The input gate at (b, s, u): the logistic function of pre-activation column u. -/
theorem in_at (x0 x1 : (⟨S128x512, .i32⟩ : BufTy).Contents (Elt Ideal)) (x2 : (⟨S128x512x66, .f32⟩ : BufTy).Contents (Elt Ideal)) (x3 : (⟨S128x512, .i32⟩ : BufTy).Contents (Elt Ideal)) (x4 : (⟨S50000x300, .f32⟩ : BufTy).Contents (Elt Ideal)) (x5 : (⟨S37x32, .f32⟩ : BufTy).Contents (Elt Ideal)) (x6 : (⟨S43x100, .f32⟩ : BufTy).Contents (Elt Ideal)) (x7 : (⟨S498x4096, .f32⟩ : BufTy).Contents (Elt Ideal)) (x9 : (⟨S4096, .f32⟩ : BufTy).Contents (Elt Ideal)) (b : Fin 128) (s : Fin 511) (u : Fin 1024) :
    val_main_v39 (F := Ideal) x0 x1 x2 x3 x4 x5 x6 x7 x9 (ix3 b s u)
      = Ideal.logistic (Cert.Lstm.zpre (val_main_v25 (F := Ideal) x0 x1 x2 x3 x4 x5 x6) x7 x9 b s ⟨u.val, by omega⟩) := by
  rw [val_main_v39_apply, val_main_v38_apply, val_main_cst_6_apply, val_main_v37_apply, val_main_v36_apply,
    val_main_cst_5_apply, val_main_v35_apply, val_main_v34_apply, val_main_v30_apply]
  have hi : idx_main_v30 (ix3 b s u) = ix3 b s (⟨u.val, by omega⟩ : Fin 4096) := funext fun a => Fin.ext (by match a with | ⟨0, _⟩ => rfl | ⟨1, _⟩ => rfl | ⟨2, _⟩ => rfl)
  rw [hi, pre_at]
  exact sigmoid_spelt _

/-- The candidate at (b, s, u): tanh of pre-activation column 2048 + u. -/
theorem cand_at (x0 x1 : (⟨S128x512, .i32⟩ : BufTy).Contents (Elt Ideal)) (x2 : (⟨S128x512x66, .f32⟩ : BufTy).Contents (Elt Ideal)) (x3 : (⟨S128x512, .i32⟩ : BufTy).Contents (Elt Ideal)) (x4 : (⟨S50000x300, .f32⟩ : BufTy).Contents (Elt Ideal)) (x5 : (⟨S37x32, .f32⟩ : BufTy).Contents (Elt Ideal)) (x6 : (⟨S43x100, .f32⟩ : BufTy).Contents (Elt Ideal)) (x7 : (⟨S498x4096, .f32⟩ : BufTy).Contents (Elt Ideal)) (x9 : (⟨S4096, .f32⟩ : BufTy).Contents (Elt Ideal)) (b : Fin 128) (s : Fin 511) (u : Fin 1024) :
    val_main_v40 (F := Ideal) x0 x1 x2 x3 x4 x5 x6 x7 x9 (ix3 b s u)
      = Ideal.tanh (Cert.Lstm.zpre (val_main_v25 (F := Ideal) x0 x1 x2 x3 x4 x5 x6) x7 x9 b s ⟨2048 + u.val, by omega⟩) := by
  rw [val_main_v40_apply, val_main_v32_apply]
  have hi : idx_main_v32 (ix3 b s u) = ix3 b s (⟨2048 + u.val, by omega⟩ : Fin 4096) := funext fun a => Fin.ext (by match a with | ⟨0, _⟩ => rfl | ⟨1, _⟩ => rfl | ⟨2, _⟩ => rfl)
  rw [hi, pre_at]
  rfl

/-- The output gate at (b, s, u): the logistic function of pre-activation column 3072 + u. -/
theorem out_at (x0 x1 : (⟨S128x512, .i32⟩ : BufTy).Contents (Elt Ideal)) (x2 : (⟨S128x512x66, .f32⟩ : BufTy).Contents (Elt Ideal)) (x3 : (⟨S128x512, .i32⟩ : BufTy).Contents (Elt Ideal)) (x4 : (⟨S50000x300, .f32⟩ : BufTy).Contents (Elt Ideal)) (x5 : (⟨S37x32, .f32⟩ : BufTy).Contents (Elt Ideal)) (x6 : (⟨S43x100, .f32⟩ : BufTy).Contents (Elt Ideal)) (x7 : (⟨S498x4096, .f32⟩ : BufTy).Contents (Elt Ideal)) (x9 : (⟨S4096, .f32⟩ : BufTy).Contents (Elt Ideal)) (b : Fin 128) (s : Fin 511) (u : Fin 1024) :
    val_main_v47 (F := Ideal) x0 x1 x2 x3 x4 x5 x6 x7 x9 (ix3 b s u)
      = Ideal.logistic (Cert.Lstm.zpre (val_main_v25 (F := Ideal) x0 x1 x2 x3 x4 x5 x6) x7 x9 b s ⟨3072 + u.val, by omega⟩) := by
  rw [val_main_v47_apply, val_main_v46_apply, val_main_cst_8_apply, val_main_v45_apply, val_main_v44_apply,
    val_main_cst_7_apply, val_main_v43_apply, val_main_v42_apply, val_main_v33_apply]
  have hi : idx_main_v33 (ix3 b s u) = ix3 b s (⟨3072 + u.val, by omega⟩ : Fin 4096) := funext fun a => Fin.ext (by match a with | ⟨0, _⟩ => rfl | ⟨1, _⟩ => rfl | ⟨2, _⟩ => rfl)
  rw [hi, pre_at]
  exact sigmoid_spelt _

/-- The hidden row at (b, s, u) is the cell step from zero state. -/
theorem hid_at (x0 x1 : (⟨S128x512, .i32⟩ : BufTy).Contents (Elt Ideal)) (x2 : (⟨S128x512x66, .f32⟩ : BufTy).Contents (Elt Ideal)) (x3 : (⟨S128x512, .i32⟩ : BufTy).Contents (Elt Ideal)) (x4 : (⟨S50000x300, .f32⟩ : BufTy).Contents (Elt Ideal)) (x5 : (⟨S37x32, .f32⟩ : BufTy).Contents (Elt Ideal)) (x6 : (⟨S43x100, .f32⟩ : BufTy).Contents (Elt Ideal)) (x7 : (⟨S498x4096, .f32⟩ : BufTy).Contents (Elt Ideal)) (x9 : (⟨S4096, .f32⟩ : BufTy).Contents (Elt Ideal)) (b : Fin 128) (s : Fin 511) (u : Fin 1024) :
    val_main_v49 (F := Ideal) x0 x1 x2 x3 x4 x5 x6 x7 x9 (ix3 b s u)
      = Cert.Lstm.cell (Cert.Lstm.zpre (val_main_v25 (F := Ideal) x0 x1 x2 x3 x4 x5 x6) x7 x9 b s ⟨u.val, by omega⟩)
          (Cert.Lstm.zpre (val_main_v25 (F := Ideal) x0 x1 x2 x3 x4 x5 x6) x7 x9 b s ⟨2048 + u.val, by omega⟩)
          (Cert.Lstm.zpre (val_main_v25 (F := Ideal) x0 x1 x2 x3 x4 x5 x6) x7 x9 b s ⟨3072 + u.val, by omega⟩) := by
  rw [val_main_v49_apply, val_main_v48_apply, val_main_v41_apply, out_at, in_at, cand_at]
  rfl

/-- The reference's result, from its feature array on, is the specification. -/
theorem ref_is_G (x0 x1 : (⟨S128x512, .i32⟩ : BufTy).Contents (Elt Ideal)) (x2 : (⟨S128x512x66, .f32⟩ : BufTy).Contents (Elt Ideal)) (x3 : (⟨S128x512, .i32⟩ : BufTy).Contents (Elt Ideal)) (x4 : (⟨S50000x300, .f32⟩ : BufTy).Contents (Elt Ideal)) (x5 : (⟨S37x32, .f32⟩ : BufTy).Contents (Elt Ideal)) (x6 : (⟨S43x100, .f32⟩ : BufTy).Contents (Elt Ideal)) (x7 : (⟨S498x4096, .f32⟩ : BufTy).Contents (Elt Ideal)) (x9 : (⟨S4096, .f32⟩ : BufTy).Contents (Elt Ideal)) (x10 : (⟨S1024x43, .f32⟩ : BufTy).Contents (Elt Ideal)) (x11 : (⟨S43, .f32⟩ : BufTy).Contents (Elt Ideal)) :
    val_main_v53 (F := Ideal) x0 x1 x2 x3 x4 x5 x6 x7 x9 x10 x11
      = Cert.Lstm.G (val_main_v25 (F := Ideal) x0 x1 x2 x3 x4 x5 x6) x7 x9 x10 x11 := by
  funext i
  obtain ⟨b, s, j, rfl⟩ : ∃ (b : Fin 128) (s : Fin 511) (j : Fin 43), i = ix3 b s j := ⟨i 0, i 1, i 2, eq_ix3 i⟩
  rw [Cert.Lstm.G_ix3, val_main_v53_apply, val_main_v50_apply, val_main_v52_apply, val_main_v51_apply]
  have hl : ∀ k : Fin 1024, lidx_main_v50 (ix3 b s j) k = ix3 b s k := fun k => funext fun a => Fin.ext (by match a with | ⟨0, _⟩ => rfl | ⟨1, _⟩ => rfl | ⟨2, _⟩ => rfl)
  have hr : ∀ k : Fin 1024, ridx_main_v50 (ix3 b s j) k = ix2 k j := fun k => funext fun a => Fin.ext (by match a with | ⟨0, _⟩ => rfl | ⟨1, _⟩ => rfl)
  have hb : idx_main_v51 (idx_main_v52 (ix3 b s j)) = ix1 j := funext fun a => Fin.ext (by match a with | ⟨0, _⟩ => rfl)
  unfold Cert.Lstm.Gat
  exact congrArg₂ (· + ·) (Finset.sum_congr rfl fun k _ => by rw [hl k, hr k, hid_at]) (congrArg x11 hb)

end Cert.ReferenceIdeal.RefAt

end
-- ==== Proof.lean ====
/-
  A sequence tagger's scores: one step of a gated recurrent cell from ZERO state at every position but the first of
  each of 128 sequences of 512, then a dense layer to 43 scores — computed two ways, and the two agree on the
  extended reals.

  Both programs look the word, tag and previous-label table rows up, lay them beside the morphology vector (498
  features) and drop each sequence's first position. The reference multiplies the features into all four gates' weights
  (4096 columns), adds the bias, and reads the input, candidate and output quarters; with zero previous state the
  forget quarter is never read. The kernel cuts the forget quarter out of the weights and the bias first, lays the
  128 x 511 positions out as 65408 rows padded to 65536, and runs the two matrix products and the gates block by
  block, 256 rows to a grid point. Row b * 511 + s of the kernel's scores is position (b, s) of the reference's: the
  same sums of the same products in the same order, so the equality needs no law of the extended reals beyond
  rewriting equal entries, and the inputs' finiteness is never used. The rounding of the kernel's inputs to a
  shorter float format and the two spellings of the logistic function are identities on the extended reals.

  The three runs: the kernel's program at the word level and on the extended reals (host lines, one launch over
  256 grid points, host lines; the arguments are written by nothing), and the reference's host program.
-/
import proofs.«107645_j42107859370787_1_alg».proof.Defs
import proofs.«107645_j42107859370787_1_alg».proof.Proof.Gen.Kernel
import proofs.«107645_j42107859370787_1_alg».proof.Proof.Gen.Kernel.Skeleton
import proofs.«107645_j42107859370787_1_alg».proof.Proof.Gen.Kernel.Launch
import proofs.«107645_j42107859370787_1_alg».proof.Proof.Gen.Kernel.Points
import proofs.«107645_j42107859370787_1_alg».proof.Proof.Gen.KernelIdeal
import proofs.«107645_j42107859370787_1_alg».proof.Proof.Gen.KernelIdeal.Skeleton
import proofs.«107645_j42107859370787_1_alg».proof.Proof.Gen.KernelIdeal.Launch
import proofs.«107645_j42107859370787_1_alg».proof.Proof.Gen.KernelIdeal.Points
import proofs.«107645_j42107859370787_1_alg».proof.Proof.Gen.ReferenceIdeal
import proofs.«107645_j42107859370787_1_alg».proof.Proof.Gen.ReferenceIdeal.Run
import proofs.«107645_j42107859370787_1_alg».proof.Proof.Gen.ReferenceIdeal.Read
import proofs.«107645_j42107859370787_1_alg».proof.Proof.Gen.Pre_finite_inputs
import proofs.«107645_j42107859370787_1_alg».proof.Proof.FrameK
import proofs.«107645_j42107859370787_1_alg».proof.Proof.FrameI
import proofs.«107645_j42107859370787_1_alg».proof.Proof.KResult
import proofs.«107645_j42107859370787_1_alg».proof.Proof.RefAt
import Idealize.ShloMosaic.Adequacy
import Idealize.ShloMosaic.Init

noncomputable section

namespace Cert.Proof

open Idealize.ShloMosaic Idealize.SL.Sem

/-- The two programs compute their feature rows by the same lines: the reference's feature array is the kernel
    program's, as functions of the arguments. -/
theorem feats_eq (x0 x1 : (⟨Cert.ReferenceIdeal.S128x512, .i32⟩ : BufTy).Contents (Elt Ideal))
    (x2 : (⟨Cert.ReferenceIdeal.S128x512x66, .f32⟩ : BufTy).Contents (Elt Ideal))
    (x3 : (⟨Cert.ReferenceIdeal.S128x512, .i32⟩ : BufTy).Contents (Elt Ideal))
    (x4 : (⟨Cert.ReferenceIdeal.S50000x300, .f32⟩ : BufTy).Contents (Elt Ideal))
    (x5 : (⟨Cert.ReferenceIdeal.S37x32, .f32⟩ : BufTy).Contents (Elt Ideal))
    (x6 : (⟨Cert.ReferenceIdeal.S43x100, .f32⟩ : BufTy).Contents (Elt Ideal)) :
    Cert.ReferenceIdeal.Read.val_main_v25 (F := Ideal) x0 x1 x2 x3 x4 x5 x6
      = Cert.KernelIdeal.Host.feats (F := Ideal) x0 x1 x2 x3 x4 x5 x6 := rfl

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the extended reals. -/
theorem preserves : Cert.preserves_Kernel_KernelIdeal := trivial

/-- From memories agreeing on the arguments both programs end with the scores `G` of the feature rows and the four
    parameter arguments. -/
theorem algebraic : Cert.algebraic_KernelIdeal_ReferenceIdeal := by
  intro m ρ m' ρ' _ hagree
  refine ⟨fun c => Cert.KernelIdeal.Result.scores m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v53_eq, Cert.ReferenceIdeal.RefAt.ref_is_G, feats_eq, h0, h1, h2, h3, h4, h5, h6, h7, h9, h10, h11]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
